-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x65536 : Shape := ⟨3, ![16, 64, 65536]⟩
abbrev S16x65536x3 : Shape := ⟨3, ![16, 65536, 3]⟩
abbrev S16x3 : Shape := ⟨2, ![16, 3]⟩
abbrev S_ : Shape := ⟨0, ![]⟩

class Facts : Prop where
  bcast_S_S16x64x65536 : S_.BroadcastsInDim S16x64x65536 (![] : Fin 0 → Fin S16x64x65536.rank)
  reducesTo_S16x64x65536_S_d0_1_2 : S16x64x65536.ReducesTo [0, 1, 2] S_
  h_S_ : 0 < S_.numel
  bcast_S_S16x65536x3 : S_.BroadcastsInDim S16x65536x3 (![] : Fin 0 → Fin S16x65536x3.rank)
  reducesTo_S16x65536x3_S_d0_1_2 : S16x65536x3.ReducesTo [0, 1, 2] S_
  bcast_S_S16x3 : S_.BroadcastsInDim S16x3 (![] : Fin 0 → Fin S16x3.rank)
  reducesTo_S16x3_S_d0_1 : S16x3.ReducesTo [0, 1] S_

variable [Facts]

def fn {F : FTy → Type} [FloatOps F] (main_arg0 : FVec F S16x64x65536 .f32) (main_arg1 : FVec F S16x65536x3 .f32) (main_arg2 : FVec F S16x3 .f32) : IVec S_ 1 :=
  let main_v0 : FVec F S16x64x65536 .f32 := Host.absf main_arg0
  let main_cst : FVec F S_ .f32 := constant S_ .f32 0x7F800000#32
  let main_v1 : FVec F S16x64x65536 .f32 := broadcastInDim S16x64x65536 ![] bcast_S_S16x64x65536 main_cst
  let main_v2 : IVec S16x64x65536 1 := cmpf .olt main_v0 main_v1
  let main_c : IVec S_ 1 := constantI S_ 1 1#1
  let main_v3 : IVec S_ 1 := (fun x v => Host.reduce IntOp.andi x v reducesTo_S16x64x65536_S_d0_1_2 h_S_) main_v2 main_c
  let main_v4 : FVec F S16x65536x3 .f32 := Host.absf main_arg1
  let main_cst_0 : FVec F S_ .f32 := constant S_ .f32 0x7F800000#32
  let main_v5 : FVec F S16x65536x3 .f32 := broadcastInDim S16x65536x3 ![] bcast_S_S16x65536x3 main_cst_0
  let main_v6 : IVec S16x65536x3 1 := cmpf .olt main_v4 main_v5
  let main_c_1 : IVec S_ 1 := constantI S_ 1 1#1
  let main_v7 : IVec S_ 1 := (fun x v => Host.reduce IntOp.andi x v reducesTo_S16x65536x3_S_d0_1_2 h_S_) main_v6 main_c_1
  let main_v8 : IVec S_ 1 := andi main_v3 main_v7
  let main_v9 : FVec F S16x3 .f32 := Host.absf main_arg2
  let main_cst_2 : FVec F S_ .f32 := constant S_ .f32 0x7F800000#32
  let main_v10 : FVec F S16x3 .f32 := broadcastInDim S16x3 ![] bcast_S_S16x3 main_cst_2
  let main_v11 : IVec S16x3 1 := cmpf .olt main_v9 main_v10
  let main_c_3 : IVec S_ 1 := constantI S_ 1 1#1
  let main_v12 : IVec S_ 1 := (fun x v => Host.reduce IntOp.andi x v reducesTo_S16x3_S_d0_1 h_S_) main_v11 main_c_3
  let main_v13 : IVec S_ 1 := andi main_v8 main_v12
  main_v13
-- ==== Kernel.lean ====
abbrev S16x64x65536 : Shape := ⟨3, ![16, 64, 65536]⟩
abbrev S16x65536x3 : Shape := ⟨3, ![16, 65536, 3]⟩
abbrev S16x3 : Shape := ⟨2, ![16, 3]⟩
abbrev S_ : Shape := ⟨0, ![]⟩
abbrev S16x1x3 : Shape := ⟨3, ![16, 1, 3]⟩
abbrev S16x65536x1 : Shape := ⟨3, ![16, 65536, 1]⟩
abbrev S16x65536 : Shape := ⟨2, ![16, 65536]⟩
abbrev S16x1x65536 : Shape := ⟨3, ![16, 1, 65536]⟩
abbrev S16x64x8192 : Shape := ⟨3, ![16, 64, 8192]⟩
abbrev S1x64x4096 : Shape := ⟨3, ![1, 64, 4096]⟩
abbrev S1x1x4096 : Shape := ⟨3, ![1, 1, 4096]⟩
abbrev S1x64x8192 : Shape := ⟨3, ![1, 64, 8192]⟩
abbrev S64x8192 : Shape := ⟨2, ![64, 8192]⟩
abbrev S1x8192 : Shape := ⟨2, ![1, 8192]⟩
abbrev S64x4096 : Shape := ⟨2, ![64, 4096]⟩
abbrev S4096 : Shape := ⟨1, ![4096]⟩
abbrev S4096x1 : Shape := ⟨2, ![4096, 1]⟩
abbrev S8x4096 : Shape := ⟨2, ![8, 4096]⟩
abbrev S1x1024 : Shape := ⟨2, ![1, 1024]⟩
abbrev S4096x1024 : Shape := ⟨2, ![4096, 1024]⟩
abbrev S64x1024 : Shape := ⟨2, ![64, 1024]⟩
abbrev S8x1024 : Shape := ⟨2, ![8, 1024]⟩
abbrev S16x64x8000 : Shape := ⟨3, ![16, 64, 8000]⟩
abbrev S16x64x20x20x20 : Shape := ⟨5, ![16, 64, 20, 20, 20]⟩

abbrev nBuf : Space → Nat
  | .hbm => 40
  | .vmem => 8
  | .smem => 0
  | _ => 0

abbrev bufTy : (tb : Table) → Fin (tcTables nBuf tb) → BufTy
  | .hbm, ⟨0, _⟩ => ⟨S16x64x65536, .f32⟩
  | .hbm, ⟨1, _⟩ => ⟨S16x65536x3, .f32⟩
  | .hbm, ⟨2, _⟩ => ⟨S16x3, .f32⟩
  | .hbm, ⟨3, _⟩ => ⟨S_, .f32⟩
  | .hbm, ⟨4, _⟩ => ⟨S16x3, .f32⟩
  | .hbm, ⟨5, _⟩ => ⟨S16x3, .f32⟩
  | .hbm, ⟨6, _⟩ => ⟨S16x1x3, .f32⟩
  | .hbm, ⟨7, _⟩ => ⟨S16x65536x3, .f32⟩
  | .hbm, ⟨8, _⟩ => ⟨S16x65536x3, .f32⟩
  | .hbm, ⟨9, _⟩ => ⟨S16x65536x3, .f32⟩
  | .hbm, ⟨10, _⟩ => ⟨S_, .f32⟩
  | .hbm, ⟨11, _⟩ => ⟨S16x65536x3, .f32⟩
  | .hbm, ⟨12, _⟩ => ⟨S16x65536x3, .f32⟩
  | .hbm, ⟨13, _⟩ => ⟨S16x65536x3, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16x65536x3, .i32⟩
  | .hbm, ⟨18, _⟩ => ⟨S16x65536x3, .i32⟩
  | .hbm, ⟨19, _⟩ => ⟨S_, .i32⟩
  | .hbm, ⟨20, _⟩ => ⟨S16x65536x3, .i32⟩
  | .hbm, ⟨21, _⟩ => ⟨S16x65536x3, .i32⟩
  | .hbm, ⟨22, _⟩ => ⟨S16x65536x1, .i32⟩
  | .hbm, ⟨23, _⟩ => ⟨S16x65536, .i32⟩
  | .hbm, ⟨24, _⟩ => ⟨S_, .i32⟩
  | .hbm, ⟨25, _⟩ => ⟨S16x65536, .i32⟩
  | .hbm, ⟨26, _⟩ => ⟨S16x65536, .i32⟩
  | .hbm, ⟨27, _⟩ => ⟨S16x65536x1, .i32⟩
  | .hbm, ⟨28, _⟩ => ⟨S16x65536, .i32⟩
  | .hbm, ⟨29, _⟩ => ⟨S_, .i32⟩
  | .hbm, ⟨30, _⟩ => ⟨S16x65536, .i32⟩
  | .hbm, ⟨31, _⟩ => ⟨S16x65536, .i32⟩
  | .hbm, ⟨32, _⟩ => ⟨S16x65536, .i32⟩
  | .hbm, ⟨33, _⟩ => ⟨S16x65536x1, .i32⟩
  | .hbm, ⟨34, _⟩ => ⟨S16x65536, .i32⟩
  | .hbm, ⟨35, _⟩ => ⟨S16x65536, .i32⟩
  | .hbm, ⟨36, _⟩ => ⟨S16x1x65536, .i32⟩
  | .hbm, ⟨37, _⟩ => ⟨S16x64x8192, .f32⟩
  | .hbm, ⟨38, _⟩ => ⟨S16x64x8000, .f32⟩
  | .hbm, ⟨39, _⟩ => ⟨S16x64x20x20x20, .f32⟩
  | .local _ .vmem, ⟨0, _⟩ => ⟨S1x64x4096, .f32⟩
  | .local _ .vmem, ⟨1, _⟩ => ⟨S1x64x4096, .f32⟩
  | .local _ .vmem, ⟨2, _⟩ => ⟨S1x1x4096, .i32⟩
  | .local _ .vmem, ⟨3, _⟩ => ⟨S1x1x4096, .i32⟩
  | .local _ .vmem, ⟨4, _⟩ => ⟨S1x64x8192, .f32⟩
  | .local _ .vmem, ⟨5, _⟩ => ⟨S1x64x8192, .f32⟩
  | .local _ .vmem, ⟨6, _⟩ => ⟨S64x8192, .f32⟩
  | .local _ .vmem, ⟨7, _⟩ => ⟨S1x8192, .f32⟩
  | _, _ => ⟨S16x64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_6 : BitVec 32 := 0#32
  let c8_i32 : BitVec 32 := 8#32
  let v10 : BitVec 32 := Scalar.addi c0_i32_6 c8_i32
  let c1_i32 : BitVec 32 := 1#32
  ⟨c0_i32_6, v10, c1_i32⟩
def k0_mult1 (k0_t1 : Fin k0_t1_loop.trips) : BitVec 32 :=
  let c0_i32_10 : BitVec 32 := 0#32
  let c0_i32_6 : BitVec 32 := 0#32
  let c1_i32 : BitVec 32 := 1#32
  let arg7 : BitVec 32 := Scf.iv c0_i32_6 c1_i32 k0_t1
  let c1_i32_9 : BitVec 32 := 1#32
  let v14 : BitVec 32 := Scalar.muli arg7 c1_i32_9
  let v15 : BitVec 32 := Scalar.addi c0_i32_10 v14
  let c1024_i32 : BitVec 32 := 1024#32
  let v16 : BitVec 32 := Scalar.muli v15 c1024_i32
  v16
def k0_off1 (k0_t1 : Fin k0_t1_loop.trips) : Fin 2 → Nat :=
  let c0_13 : Index := 0#32
  let c0_i32_10 : BitVec 32 := 0#32
  let c0_i32_6 : BitVec 32 := 0#32
  let c1_i32 : BitVec 32 := 1#32
  let arg7 : BitVec 32 := Scf.iv c0_i32_6 c1_i32 k0_t1
  let c1_i32_9 : BitVec 32 := 1#32
  let v14 : BitVec 32 := Scalar.muli arg7 c1_i32_9
  let v15 : BitVec 32 := Scalar.addi c0_i32_10 v14
  let c1024_i32 : BitVec 32 := 1024#32
  let v16 : BitVec 32 := Scalar.muli v15 c1024_i32
  let v17 : BitVec 32 := v16
  let v29 : Index := Scalar.indexCast v17
  ![0, v29.toNat]
def k0_off2 (k0_t1 : Fin k0_t1_loop.trips) : Fin 2 → Nat :=
  let c0_15 : Index := 0#32
  let c0_i32_10 : BitVec 32 := 0#32
  let c0_i32_6 : BitVec 32 := 0#32
  let c1_i32 : BitVec 32 := 1#32
  let arg7 : BitVec 32 := Scf.iv c0_i32_6 c1_i32 k0_t1
  let c1_i32_9 : BitVec 32 := 1#32
  let v14 : BitVec 32 := Scalar.muli arg7 c1_i32_9
  let v15 : BitVec 32 := Scalar.addi c0_i32_10 v14
  let c1024_i32 : BitVec 32 := 1024#32
  let v16 : BitVec 32 := Scalar.muli v15 c1024_i32
  let v17 : BitVec 32 := v16
  let v36 : Index := Scalar.indexCast v17
  ![0, v36.toNat]
def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16x3 : S_.BroadcastsInDim S16x3 (![] : Fin 0 → Fin S16x3.rank)
  bcast_S16x3_S16x1x3_0_2 : S16x3.BroadcastsInDim S16x1x3 (![0, 2] : Fin 2 → Fin S16x1x3.rank)
  bcast_S16x1x3_S16x65536x3_0_1_2 : S16x1x3.BroadcastsInDim S16x65536x3 (![0, 1, 2] : Fin 3 → Fin S16x65536x3.rank)
  bcast_S_S16x65536x3 : S_.BroadcastsInDim S16x65536x3 (![] : Fin 0 → Fin S16x65536x3.rank)
  slices_S16x65536x3_S16x65536x1_0_0_0 : S16x65536x3.Slices ![0, 0, 0] S16x65536x1
  shapeCasts_S16x65536x1_S16x65536 : S16x65536x1.ShapeCasts S16x65536
  bcast_S_S16x65536 : S_.BroadcastsInDim S16x65536 (![] : Fin 0 → Fin S16x65536.rank)
  slices_S16x65536x3_S16x65536x1_0_0_1 : S16x65536x3.Slices ![0, 0, 1] S16x65536x1
  slices_S16x65536x3_S16x65536x1_0_0_2 : S16x65536x3.Slices ![0, 0, 2] S16x65536x1
  shapeCasts_S16x65536_S16x1x65536 : S16x65536.ShapeCasts S16x1x65536
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  bitsLt_bf16_f32 : FTy.bits .bf16 < FTy.bits .f32
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S4096x1 : S4096.ShapeCasts S4096x1
  iota_S1x1024_d1_w32 : S1x1024.Iotas .tc 32 [1]
  broadcasts_S4096x1_S4096x1024 : S4096x1.Broadcasts S4096x1024
  broadcasts_S1x1024_S4096x1024 : S1x1024.Broadcasts S4096x1024
  natLt_1_32 : 1 < 32
  h_S64x1024 : 0 < S64x1024.numel
  shapeCasts_S64x1024_S64x1024 : S64x1024.ShapeCasts S64x1024
  h_S1x1024 : 0 < S1x1024.numel
  slices_S8x1024_o0_0_S1x1024 : S8x1024.Slices ![0, 0] S1x1024
  shapeCasts_S1x1024_S1x1024 : S1x1024.ShapeCasts S1x1024
  broadcasts_S1x8192_S64x8192 : S1x8192.Broadcasts S64x8192
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  shapeCasts_S64x8192_S1x64x8192 : S64x8192.ShapeCasts S1x64x8192
  slices_S16x64x8192_S16x64x8000_0_0_0 : S16x64x8192.Slices ![0, 0, 0] S16x64x8000
  shapeCasts_S16x64x8000_S16x64x20x20x20 : S16x64x8000.ShapeCasts S16x64x20x20x20
  dot_S64x4096_S4096x1024_S64x1024_1_0_0_1_n_n_wf : DotDims.WF S64x4096 S4096x1024 S64x1024 [1] [0] [0] [1] [] []
  dot_S8x4096_S4096x1024_S8x1024_1_0_0_1_n_n_wf : DotDims.WF S8x4096 S4096x1024 S8x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x1024.size a ≤ S64x8192.size a
  k0_off2_inb : ∀ k0_t1 : Fin k0_t1_loop.trips, ∀ a, (k0_off2 k0_t1) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S16x64x65536.size a
  hwx0_0 : ∀ i : grid0.Coords, EltTy.bits .f32 = 32 ∨ (Rect.block (s := S16x64x65536) S1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x65536.size a
  hwx0_1 : ∀ i : grid0.Coords, EltTy.bits .i32 = 32 ∨ (Rect.block (s := S16x1x65536) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x8192.size a ≤ S16x64x8192.size a
  hwx0_2 : ∀ i : grid0.Coords, EltTy.bits .f32 = 32 ∨ (Rect.block (s := S16x64x8192) S1x64x8192.size (cc0_transform_2 i) (hinb0_2 i)).WholeWords (EltTy.packing .f32)

variable [Facts₀]

def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf
def dot_S8x4096_S4096x1024_S8x1024_1_0_0_1_n_n : DotDims S8x4096 S4096x1024 S8x1024 where
  lhsContracting := [1]
  rhsContracting := [0]
  lhsNonContracting := [0]
  rhsNonContracting := [1]
  lhsBatch := []
  rhsBatch := []
  wf := dot_S8x4096_S4096x1024_S8x1024_1_0_0_1_n_n_wf

abbrev win0_0 : Pipeline.Window sig grid0 :=
  Pipeline.Window.ofSpec (Memref.whole main_arg0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x64x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x64x65536 : Shape := ⟨3, ![16, 64, 65536]⟩
abbrev S16x65536x3 : Shape := ⟨3, ![16, 65536, 3]⟩
abbrev S16x3 : Shape := ⟨2, ![16, 3]⟩
abbrev S_ : Shape := ⟨0, ![]⟩
abbrev S16x1x3 : Shape := ⟨3, ![16, 1, 3]⟩
abbrev S16x65536x1 : Shape := ⟨3, ![16, 65536, 1]⟩
abbrev S16x65536 : Shape := ⟨2, ![16, 65536]⟩
abbrev S16 : Shape := ⟨1, ![16]⟩
abbrev S16x1 : Shape := ⟨2, ![16, 1]⟩
abbrev S1048576 : Shape := ⟨1, ![1048576]⟩
abbrev S16x65536x64 : Shape := ⟨3, ![16, 65536, 64]⟩
abbrev S1048576x64 : Shape := ⟨2, ![1048576, 64]⟩
abbrev S128000x64 : Shape := ⟨2, ![128000, 64]⟩
abbrev S1048576x1 : Shape := ⟨2, ![1048576, 1]⟩
abbrev S128000 : Shape := ⟨1, ![128000]⟩
abbrev S128000x1 : Shape := ⟨2, ![128000, 1]⟩
abbrev S16x20x20x20x64 : Shape := ⟨5, ![16, 20, 20, 20, 64]⟩
abbrev S16x64x20x20x20 : Shape := ⟨5, ![16, 64, 20, 20, 20]⟩

abbrev nBuf : Space → Nat
  | .hbm => 64
  | .vmem => 0
  | .smem => 0
  | _ => 0

abbrev bufTy : (tb : Table) → Fin (tcTables nBuf tb) → BufTy
  | .hbm, ⟨0, _⟩ => ⟨S16x64x65536, .f32⟩
  | .hbm, ⟨1, _⟩ => ⟨S16x65536x3, .f32⟩
  | .hbm, ⟨2, _⟩ => ⟨S16x3, .f32⟩
  | .hbm, ⟨3, _⟩ => ⟨S_, .f32⟩
  | .hbm, ⟨4, _⟩ => ⟨S16x3, .f32⟩
  | .hbm, ⟨5, _⟩ => ⟨S16x3, .f32⟩
  | .hbm, ⟨6, _⟩ => ⟨S16x1x3, .f32⟩
  | .hbm, ⟨7, _⟩ => ⟨S16x65536x3, .f32⟩
  | .hbm, ⟨8, _⟩ => ⟨S16x65536x3, .f32⟩
  | .hbm, ⟨9, _⟩ => ⟨S16x65536x3, .f32⟩
  | .hbm, ⟨10, _⟩ => ⟨S_, .f32⟩
  | .hbm, ⟨11, _⟩ => ⟨S16x65536x3, .f32⟩
  | .hbm, ⟨12, _⟩ => ⟨S16x65536x3, .f32⟩
  | .hbm, ⟨13, _⟩ => ⟨S16x65536x3, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S16x65536x3, .i32⟩
  | .hbm, ⟨18, _⟩ => ⟨S16x65536x3, .i32⟩
  | .hbm, ⟨19, _⟩ => ⟨S_, .i32⟩
  | .hbm, ⟨20, _⟩ => ⟨S16x65536x3, .i32⟩
  | .hbm, ⟨21, _⟩ => ⟨S16x65536x3, .i32⟩
  | .hbm, ⟨22, _⟩ => ⟨S16x65536x1, .i32⟩
  | .hbm, ⟨23, _⟩ => ⟨S16x65536, .i32⟩
  | .hbm, ⟨24, _⟩ => ⟨S_, .i32⟩
  | .hbm, ⟨25, _⟩ => ⟨S16x65536, .i32⟩
  | .hbm, ⟨26, _⟩ => ⟨S16x65536, .i32⟩
  | .hbm, ⟨27, _⟩ => ⟨S16x65536x1, .i32⟩
  | .hbm, ⟨28, _⟩ => ⟨S16x65536, .i32⟩
  | .hbm, ⟨29, _⟩ => ⟨S_, .i32⟩
  | .hbm, ⟨30, _⟩ => ⟨S16x65536, .i32⟩
  | .hbm, ⟨31, _⟩ => ⟨S16x65536, .i32⟩
  | .hbm, ⟨32, _⟩ => ⟨S16x65536, .i32⟩
  | .hbm, ⟨33, _⟩ => ⟨S16x65536x1, .i32⟩
  | .hbm, ⟨34, _⟩ => ⟨S16x65536, .i32⟩
  | .hbm, ⟨35, _⟩ => ⟨S16x65536, .i32⟩
  | .hbm, ⟨36, _⟩ => ⟨S16, .i32⟩
  | .hbm, ⟨37, _⟩ => ⟨S16x1, .i32⟩
  | .hbm, ⟨38, _⟩ => ⟨S_, .i32⟩
  | .hbm, ⟨39, _⟩ => ⟨S16x1, .i32⟩
  | .hbm, ⟨40, _⟩ => ⟨S16x1, .i32⟩
  | .hbm, ⟨41, _⟩ => ⟨S16x65536, .i32⟩
  | .hbm, ⟨42, _⟩ => ⟨S16x65536, .i32⟩
  | .hbm, ⟨43, _⟩ => ⟨S1048576, .i32⟩
  | .hbm, ⟨44, _⟩ => ⟨S16x65536x64, .f32⟩
  | .hbm, ⟨45, _⟩ => ⟨S1048576x64, .f32⟩
  | .hbm, ⟨46, _⟩ => ⟨S_, .f32⟩
  | .hbm, ⟨47, _⟩ => ⟨S128000x64, .f32⟩
  | .hbm, ⟨48, _⟩ => ⟨S1048576x1, .i32⟩
  | .hbm, ⟨49, _⟩ => ⟨S128000x64, .f32⟩
  | .hbm, ⟨50, _⟩ => ⟨S_, .f32⟩
  | .hbm, ⟨51, _⟩ => ⟨S1048576, .f32⟩
  | .hbm, ⟨52, _⟩ => ⟨S_, .f32⟩
  | .hbm, ⟨53, _⟩ => ⟨S128000, .f32⟩
  | .hbm, ⟨54, _⟩ => ⟨S1048576x1, .i32⟩
  | .hbm, ⟨55, _⟩ => ⟨S128000, .f32⟩
  | .hbm, ⟨56, _⟩ => ⟨S_, .f32⟩
  | .hbm, ⟨57, _⟩ => ⟨S128000, .f32⟩
  | .hbm, ⟨58, _⟩ => ⟨S128000, .f32⟩
  | .hbm, ⟨59, _⟩ => ⟨S128000x1, .f32⟩
  | .hbm, ⟨60, _⟩ => ⟨S128000x64, .f32⟩
  | .hbm, ⟨61, _⟩ => ⟨S128000x64, .f32⟩
  | .hbm, ⟨62, _⟩ => ⟨S16x20x20x20x64, .f32⟩
  | .hbm, ⟨63, _⟩ => ⟨S16x64x20x20x20, .f32⟩
  | _, _ => ⟨S16x64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S_S16x3 : S_.BroadcastsInDim S16x3 (![] : Fin 0 → Fin S16x3.rank)
  bcast_S16x3_S16x1x3_0_2 : S16x3.BroadcastsInDim S16x1x3 (![0, 2] : Fin 2 → Fin S16x1x3.rank)
  bcast_S16x1x3_S16x65536x3_0_1_2 : S16x1x3.BroadcastsInDim S16x65536x3 (![0, 1, 2] : Fin 3 → Fin S16x65536x3.rank)
  bcast_S_S16x65536x3 : S_.BroadcastsInDim S16x65536x3 (![] : Fin 0 → Fin S16x65536x3.rank)
  slices_S16x65536x3_S16x65536x1_0_0_0 : S16x65536x3.Slices ![0, 0, 0] S16x65536x1
  shapeCasts_S16x65536x1_S16x65536 : S16x65536x1.ShapeCasts S16x65536
  bcast_S_S16x65536 : S_.BroadcastsInDim S16x65536 (![] : Fin 0 → Fin S16x65536.rank)
  slices_S16x65536x3_S16x65536x1_0_0_1 : S16x65536x3.Slices ![0, 0, 1] S16x65536x1
  slices_S16x65536x3_S16x65536x1_0_0_2 : S16x65536x3.Slices ![0, 0, 2] S16x65536x1
  bcast_S16_S16x1_0 : S16.BroadcastsInDim S16x1 (![0] : Fin 1 → Fin S16x1.rank)
  bcast_S_S16x1 : S_.BroadcastsInDim S16x1 (![] : Fin 0 → Fin S16x1.rank)
  bcast_S16x1_S16x65536_0_1 : S16x1.BroadcastsInDim S16x65536 (![0, 1] : Fin 2 → Fin S16x65536.rank)
  shapeCasts_S16x65536_S1048576 : S16x65536.ShapeCasts S1048576
  transposes_S16x64x65536_S16x65536x64_0_2_1 : S16x64x65536.Transposes [0, 2, 1] S16x65536x64
  shapeCasts_S16x65536x64_S1048576x64 : S16x65536x64.ShapeCasts S1048576x64
  bcast_S_S128000x64 : S_.BroadcastsInDim S128000x64 (![] : Fin 0 → Fin S128000x64.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S128000 : S_.BroadcastsInDim S128000 (![] : Fin 0 → Fin S128000.rank)
  bcast_S128000_S128000x1_0 : S128000.BroadcastsInDim S128000x1 (![0] : Fin 1 → Fin S128000x1.rank)
  bcast_S128000x1_S128000x64_0_1 : S128000x1.BroadcastsInDim S128000x64 (![0, 1] : Fin 2 → Fin S128000x64.rank)
  shapeCasts_S128000x64_S16x20x20x20x64 : S128000x64.ShapeCasts S16x20x20x20x64
  transposes_S16x20x20x20x64_S16x64x20x20x20_0_4_1_2_3 : S16x20x20x20x64.Transposes [0, 4, 1, 2, 3] S16x64x20x20x20
  scatter_S128000x64_S1048576x1_S1048576x64_1_0_0_1_wf : ScatterDims.WF S128000x64 S1048576x1 S1048576x64 [1] [0] [0] 1
  scatter_S128000_S1048576x1_S1048576_n_0_0_1_wf : ScatterDims.WF S128000 S1048576x1 S1048576 [] [0] [0] 1

variable [Facts₀]

def scatter_S128000x64_S1048576x1_S1048576x64_1_0_0_1 : ScatterDims S128000x64 S1048576x1 S1048576x64 where
  updateWindowDims := [1]
  insertedWindowDims := [0]
  scatterDimsToOperandDims := [0]
  indexVectorDim := 1
  wf := scatter_S128000x64_S1048576x1_S1048576x64_1_0_0_1_wf
def scatter_S128000_S1048576x1_S1048576_n_0_0_1 : ScatterDims S128000 S1048576x1 S1048576 where
  updateWindowDims := []
  insertedWindowDims := [0]
  scatterDimsToOperandDims := [0]
  indexVectorDim := 1
  wf := scatter_S128000_S1048576x1_S1048576_n_0_0_1_wf

class Facts : Prop extends Facts₀ where

variable [Facts]
-- ==== Proof.KLoop.lean ====
/-
  The body's inner loop over the eight voxel chunks, read as values.

  Trip `k` loads chunk `k` (columns `1024 k … 1024 k + 1023`) of the sum scratch and of the count scratch, adds to
  each the chunk's one-hot products, and stores both back at the same columns.  The chunks of different trips are
  apart, so what a trip loads is what the scratch held when the loop was entered; hence after `k` trips the stores
  made so far are, chunk by chunk, the chunk's payload over the loop-entry contents.
-/
import proofs.«122966_j44074954391645_1_alg».proof.Proof.Gen.KernelIdeal.Loops
import Idealize.ShloMosaic.Lib.Pipeline.Value

set_option maxRecDepth 16384

noncomputable section

open Idealize.ShloMosaic Idealize.ShloMosaic.TcCoe Idealize.SL.Sem

namespace Cert.Voxel.K

open Cert.KernelIdeal Cert.KernelIdeal.Gen

variable {F : FTy → Type} [FloatOps F]

/-- Chunk `k` of the sum scratch: all 64 rows, columns `1024 k` onwards. -/
abbrev rect5 (k : Fin k0_t1_loop.trips) : Rect S64x8192 := Rect.unit (k0_off1 k) S64x1024.size (k0_off1_inb k)
/-- Chunk `k` of the count scratch: its one row, columns `1024 k` onwards. -/
abbrev rect6 (k : Fin k0_t1_loop.trips) : Rect S1x8192 := Rect.unit (k0_off2 k) S1x1024.size (k0_off2_inb k)

/-- The store trip `k` makes into the sum scratch when the scratch read `X` at loop entry. -/
def piece5 (v3 : Vec F S1x64x4096 .f32) (v6 : Vec F S1x1x4096 .i32) (X : Vec F S64x8192 .f32) (k : Fin k0_t1_loop.trips) :
    View.Piece (Elt F) S64x8192 .f32 := ⟨rect5 k, k0_pay4 v3 v6 k (View.ld X (rect5 k))⟩
/-- The store trip `k` makes into the count scratch when the scratch read `X` at loop entry. -/
def piece6 (v6 : Vec F S1x1x4096 .i32) (X : Vec F S1x8192 .f32) (k : Fin k0_t1_loop.trips) :
    View.Piece (Elt F) S1x8192 .f32 := ⟨rect6 k, k0_pay5 v6 k (View.ld X (rect6 k))⟩

/-- One trip's two stores: each at the trip's chunk, of the payload of the load at that chunk. -/
theorem tripL_eq (𝒱 : Variants) (c : Dev nD) (bd : Option 𝒱.V) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (v3 : Vec F S1x64x4096 .f32) (v6 : Vec F S1x1x4096 .i32) (k : Fin k0_t1_loop.trips)
    (f5 : BufTy.Contents (Elt F) arg5.view.ty) (f6 : BufTy.Contents (Elt F) arg6.view.ty) :
    tripL_k0_t1 (F := F) 𝒱 c bd i arg2 harg2 arg3 harg3 arg4 harg4 arg5 harg5 arg6 harg6 v3 v6 k f5 f6
      = ([(⟨rect5 k, k0_pay4 v3 v6 k (View.ld (arg5.view.read (Elt F) f5) (rect5 k))⟩ : View.Piece (Elt F) S64x8192 .f32)],
         [(⟨rect6 k, k0_pay5 v6 k (View.ld (arg6.view.read (Elt F) f6) (rect6 k))⟩ : View.Piece (Elt F) S1x8192 .f32)]) := by
  unfold tripL_k0_t1 trip_k0_t1
  rfl

/-- A column of chunk `k` is not a column of an earlier chunk. -/
theorem rect5_apart (k k' : Fin k0_t1_loop.trips) (h : k'.val < k.val) (j : (rect5 k).toLoadRect.shape.Idx) :
    (rect5 k).toLoadRect.idx j ∉ (rect5 k').set := by
  rw [Rect.mem_set_unit]
  intro hm
  have h1 := (hm 1).2
  rw [LoadRect.idx_apply] at h1
  simp only [Rect.off_unit, Rect.stride_unit, k0_off1_eq] at h1
  have e1 : (![0, 1024 * k.val] : Fin 2 → ℕ) 1 = 1024 * k.val := rfl
  have e2 : (![0, 1024 * k'.val] : Fin 2 → ℕ) 1 = 1024 * k'.val := rfl
  have e3 : (![64, 1024] : Fin 2 → ℕ) 1 = 1024 := rfl
  rw [e1, e2, e3] at h1
  omega

theorem rect6_apart (k k' : Fin k0_t1_loop.trips) (h : k'.val < k.val) (j : (rect6 k).toLoadRect.shape.Idx) :
    (rect6 k).toLoadRect.idx j ∉ (rect6 k').set := by
  rw [Rect.mem_set_unit]
  intro hm
  have h1 := (hm 1).2
  rw [LoadRect.idx_apply] at h1
  simp only [Rect.off_unit, Rect.stride_unit, k0_off2_eq] at h1
  have e1 : (![0, 1024 * k.val] : Fin 2 → ℕ) 1 = 1024 * k.val := rfl
  have e2 : (![0, 1024 * k'.val] : Fin 2 → ℕ) 1 = 1024 * k'.val := rfl
  have e3 : (![1, 1024] : Fin 2 → ℕ) 1 = 1024 := rfl
  rw [e1, e2, e3] at h1
  omega

/-- After `k` trips the stores made are the chunk stores of the trips before `k`, each over the loop-entry contents. -/
theorem pb_mem (𝒱 : Variants) (c : Dev nD) (bd : Option 𝒱.V) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (v3 : Vec F S1x64x4096 .f32) (v6 : Vec F S1x1x4096 .i32)
    (G5 : BufTy.Contents (Elt F) arg5.view.ty) (G6 : BufTy.Contents (Elt F) arg6.view.ty) :
    ∀ (k : ℕ), k ≤ k0_t1_loop.trips →
      (∀ p ∈ (pb_k0_t1 (F := F) 𝒱 c bd i arg2 harg2 arg3 harg3 arg4 harg4 arg5 harg5 arg6 harg6 v3 v6 G5 G6 k).1,
          ∃ k' : Fin k0_t1_loop.trips, k'.val < k ∧ p = piece5 v3 v6 (arg5.view.read (Elt F) G5) k')
      ∧ (∀ p ∈ (pb_k0_t1 (F := F) 𝒱 c bd i arg2 harg2 arg3 harg3 arg4 harg4 arg5 harg5 arg6 harg6 v3 v6 G5 G6 k).2,
          ∃ k' : Fin k0_t1_loop.trips, k'.val < k ∧ p = piece6 v6 (arg6.view.read (Elt F) G6) k')
  | 0, _ => ⟨fun p hp => absurd hp List.not_mem_nil, fun p hp => absurd hp List.not_mem_nil⟩
  | k + 1, hk => by
    have hlt : k < k0_t1_loop.trips := hk
    obtain ⟨ih5, ih6⟩ := pb_mem 𝒱 c bd i arg2 harg2 arg3 harg3 arg4 harg4 arg5 harg5 arg6 harg6 v3 v6 G5 G6 k (Nat.le_of_lt hlt)
    have e : pb_k0_t1 (F := F) 𝒱 c bd i arg2 harg2 arg3 harg3 arg4 harg4 arg5 harg5 arg6 harg6 v3 v6 G5 G6 (k + 1) = _ :=
      pb_k0_t1_succ (F := F) 𝒱 c bd i arg2 harg2 arg3 harg3 arg4 harg4 arg5 harg5 arg6 harg6 v3 v6 G5 G6 ⟨k, hlt⟩
    rw [e, tripL_eq]
    have r5 : View.ld (arg5.view.read (Elt F) (arg5.view.writes (Elt F) G5 (pb_k0_t1 (F := F) 𝒱 c bd i arg2 harg2 arg3 harg3 arg4 harg4 arg5 harg5 arg6 harg6 v3 v6 G5 G6 k).1)) (rect5 ⟨k, hlt⟩)
        = View.ld (arg5.view.read (Elt F) G5) (rect5 ⟨k, hlt⟩) := by
      rw [← View.readAt_eq_ld, ← View.readAt_eq_ld]
      refine View.readAt_writes_of_forall_not_mem _ _ _ _ fun j p hp => ?_
      obtain ⟨k', hk', rfl⟩ := ih5 p hp
      exact rect5_apart ⟨k, hlt⟩ k' hk' j
    have r6 : View.ld (arg6.view.read (Elt F) (arg6.view.writes (Elt F) G6 (pb_k0_t1 (F := F) 𝒱 c bd i arg2 harg2 arg3 harg3 arg4 harg4 arg5 harg5 arg6 harg6 v3 v6 G5 G6 k).2)) (rect6 ⟨k, hlt⟩)
        = View.ld (arg6.view.read (Elt F) G6) (rect6 ⟨k, hlt⟩) := by
      rw [← View.readAt_eq_ld, ← View.readAt_eq_ld]
      refine View.readAt_writes_of_forall_not_mem _ _ _ _ fun j p hp => ?_
      obtain ⟨k', hk', rfl⟩ := ih6 p hp
      exact rect6_apart ⟨k, hlt⟩ k' hk' j
    rw [r5, r6]
    refine ⟨fun p hp => ?_, fun p hp => ?_⟩
    · rcases List.mem_append.mp hp with h | h
      · exact ⟨⟨k, hlt⟩, Nat.lt_succ_self k, List.mem_singleton.mp h⟩
      · obtain ⟨k', hk', e'⟩ := ih5 p h
        exact ⟨k', Nat.lt_succ_of_lt hk', e'⟩
    · rcases List.mem_append.mp hp with h | h
      · exact ⟨⟨k, hlt⟩, Nat.lt_succ_self k, List.mem_singleton.mp h⟩
      · obtain ⟨k', hk', e'⟩ := ih6 p h
        exact ⟨k', Nat.lt_succ_of_lt hk', e'⟩

end Cert.Voxel.K

end
-- ==== Proof.Spec.lean ====
/-
  The mathematics both programs compute, stated once over plain index types.

  Every point `n` of batch `b` carries a voxel number, the 32-bit word `flat (b, n)`.  For a voxel number `r`
  the SUM of channel `c` is the sum, over all 65536 points of the batch, of the feature `feat (b, c, n)` times the
  indicator that the point's word is `r`; the COUNT is the sum of the indicators; the AVERAGE is the sum divided by
  the count raised to at least one.  The result array, at `(b, c, x, y, z)`, is the average at voxel number
  `400 x + 20 y + z`.

  Nothing here needs finiteness: the indicator is `0` or `1`, a product with `0` is `0` on every extended real,
  and sums of extended reals may be regrouped and reordered freely.
-/
import Idealize.ShloMosaic.PureOps.Ideal
import Idealize.ShloMosaic.Lib.ValueIdx

noncomputable section

namespace Cert.Voxel

open Idealize.ShloMosaic Idealize.ShloMosaic.ValueIdx

/-- The shape of the features: batch, channel, point. -/
abbrev SFeat : Shape := ⟨3, ![16, 64, 65536]⟩
/-- The shape of the voxel numbers: batch, point. -/
abbrev SFlat : Shape := ⟨2, ![16, 65536]⟩
/-- The shape of the result: batch, channel, and the three voxel coordinates. -/
abbrev SOut : Shape := ⟨5, ![16, 64, 20, 20, 20]⟩

/-- The indicator that the word `w` is the voxel number `r`. -/
def hit (w : BitVec 32) (r : ℕ) : EReal := if w = BitVec.ofNat 32 r then 1 else 0

theorem hit_eq_one {w : BitVec 32} {r : ℕ} (h : w = BitVec.ofNat 32 r) : hit w r = 1 := if_pos h
theorem hit_eq_zero {w : BitVec 32} {r : ℕ} (h : ¬w = BitVec.ofNat 32 r) : hit w r = 0 := if_neg h

/-- A feature times the indicator is the feature where the point hits and zero where it does not. -/
theorem mul_hit (x : EReal) (w : BitVec 32) (r : ℕ) :
    x * hit w r = if w = BitVec.ofNat 32 r then x else 0 := by
  unfold hit; split <;> simp

/-- The sum of channel `c` of batch `b` over the points whose voxel number is `r`. -/
def voxSum (feat : SFeat.Idx → EReal) (flat : SFlat.Idx → BitVec 32) (b : Fin 16) (c : Fin 64) (r : ℕ) : EReal :=
  ∑ n : Fin 65536, feat (ix3 b c n) * hit (flat (ix2 b n)) r

/-- The number of points of batch `b` whose voxel number is `r`. -/
def voxCount (flat : SFlat.Idx → BitVec 32) (b : Fin 16) (r : ℕ) : EReal :=
  ∑ n : Fin 65536, hit (flat (ix2 b n)) r

/-- The average: the sum over the count, the count raised to at least one. -/
def voxAvg (feat : SFeat.Idx → EReal) (flat : SFlat.Idx → BitVec 32) (b : Fin 16) (c : Fin 64) (r : ℕ) : EReal :=
  Ideal.div (voxSum feat flat b c r) (max (voxCount flat b r) 1)

/-- The result array: at `(b, c, x, y, z)` the average at voxel number `400 x + 20 y + z`. -/
def result (feat : SFeat.Idx → EReal) (flat : SFlat.Idx → BitVec 32) : SOut.Idx → EReal :=
  fun i => voxAvg feat flat (i 0) (i 1) (400 * (i 2).val + 20 * (i 3).val + (i 4).val)

/-- The f32 pattern of one denotes one. -/
theorem one_f32 : Ideal.ofBits .f32 0x3F800000#32 = 1 := by
  simp [Ideal.ofBits, Ideal.ieee, -EReal.coe_mul]; norm_num

/-- The bf16 pattern of one denotes one. -/
theorem one_bf16 : Ideal.ofBits .bf16 0x3F80#16 = 1 := by
  simp [Ideal.ofBits, Ideal.ieee, -EReal.coe_mul]; norm_num

end Cert.Voxel

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.KPayload.lean ====
/-
  The kernel body's arithmetic, read one element at a time.

  The body holds a tile of 4096 points: their features (64 channels) and their voxel numbers (32-bit words).  In trip
  `k` of its inner loop it builds the one-hot matrix of the tile against the 1024 voxel numbers
  `1024 k, …, 1024 k + 1023`: entry `(j, l)` is 1 when point `j`'s word is the word of `1024 k + l`, else 0.  The
  sums accumulator gains the features times that matrix, the counts accumulator gains a row of ones times it, and the
  final step divides the sums by the counts raised to at least one.  Each lemma below reads one stored value at one
  index as that formula.
-/
import proofs.«122966_j44074954391645_1_alg».proof.Proof.Gen.KernelIdeal.Skeleton
import proofs.«122966_j44074954391645_1_alg».proof.Proof.Spec
import proofs.«122966_j44074954391645_1_alg».proof.Proof.LibKeepdims
import proofs.«122966_j44074954391645_1_alg».proof.Proof.LibPlainDot
import Idealize.ShloMosaic.Lib.ValueLayout
import Idealize.ShloMosaic.Lib.Pipeline.Value

noncomputable section

namespace Cert.Voxel.KPay

open Cert.KernelIdeal Cert.KernelIdeal.Gen Idealize.ShloMosaic Idealize.ShloMosaic.ValueIdx

/-- The inner loop has eight trips. -/
theorem trip_lt (k : Fin k0_t1_loop.trips) : k.val < 8 := Nat.lt_of_lt_of_le k.isLt k0_t1_abs.2.1

/-! ## The two accumulators start at zero -/

/-- The value the sums accumulator is reset to is zero everywhere. -/
theorem pay1_apply (i : S64x8192.Idx) : k0_pay1 (F := Ideal) i = 0 := by
  have e : k0_pay1 (F := Ideal)
      = shapeCast S64x8192 (broadcast S64x8192 (Ideal.ofBits .f32 0x00000000#32)) shapeCasts_S64x8192_S64x8192 := rfl
  rw [e, shapeCast_self, broadcast_apply, Ideal.ofBits_zero_f32]

/-- The value the counts accumulator is reset to is zero everywhere. -/
theorem pay2_apply (i : S1x8192.Idx) : k0_pay2 (F := Ideal) i = 0 := by
  have e : k0_pay2 (F := Ideal)
      = shapeCast S1x8192 (broadcast S1x8192 (Ideal.ofBits .f32 0x00000000#32)) shapeCasts_S1x8192_S1x8192 := rfl
  rw [e, shapeCast_self, broadcast_apply, Ideal.ofBits_zero_f32]

/-! ## The one-hot matrix -/

/-- The first voxel number of trip `n`'s chunk, as the body computes it from the loop counter, is the word of `1024 n`. -/
theorem chunk_word (n : Nat) :
    Scalar.muli (Scalar.addi 0#32 (Scalar.muli (Scf.iv 0#32 1#32 n) 1#32)) 1024#32 = BitVec.ofNat 32 (1024 * n) := by
  unfold Scalar.muli Scalar.addi IntOp.muli IntOp.addi Scf.iv
  rw [BitVec.mul_one, BitVec.zero_add, BitVec.mul_one, BitVec.zero_add, Nat.mul_comm, BitVec.ofNat_mul]

/-- Adding the position inside the chunk gives the word of `1024 n + l`. -/
theorem chunk_word_add (n l : Nat) :
    IntOp.addi (BitVec.ofNat 32 (1024 * n)) (BitVec.ofNat 32 l) = BitVec.ofNat 32 (1024 * n + l) := by
  unfold IntOp.addi
  rw [BitVec.ofNat_add]

/-- An equality test of two words, widened to 32 bits and converted to a float, is the indicator of equality. -/
theorem onehot_scalar (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · subst h
    rw [if_pos rfl]
    have : IntOp.cmpi .eq a a = 1#1 := by simp [IntOp.cmpi]
    rw [this]
    have : ((1#1 : BitVec 1).setWidth 32).toInt = 1 := by decide
    rw [this]; simp
  · rw [if_neg h]
    have hb : (a == b) = false := by simpa using h
    have : IntOp.cmpi .eq a b = 0#1 := by simp [IntOp.cmpi, hb]
    rw [this]
    have : ((0#1 : BitVec 1).setWidth 32).toInt = 0 := by decide
    rw [this]; simp

/-- The tile's words, laid out as a column and repeated along the rows of the matrix, read point `j`'s word. -/
theorem col_read (v6 : Vec Ideal S1x1x4096 .i32) (j : Fin 4096) (l : Fin 1024) :
    broadcastTo S4096x1024 (shapeCast S4096x1 (shapeCast S4096 v6 shapeCasts_S1x1x4096_S4096) shapeCasts_S4096_S4096x1)
        broadcasts_S4096x1_S4096x1024 (ix2 j l) = v6 (ix3 (0 : Fin 1) (0 : Fin 1) j) := by
  rw [broadcastTo_a1_ab_apply, shapeCast_a_a1_apply]
  refine shapeCast_apply v6 shapeCasts_S1x1x4096_S4096 (ix1 j) (ix3 (0 : Fin 1) (0 : Fin 1) j) ?_
  rw [Shape.rowMajor_val_three, Shape.rowMajor_val_one]
  show ((0 * 1 + 0) * 4096 + j.val) = j.val
  omega

/-- The chunk's voxel numbers, one row repeated down the matrix, read the chunk's first word plus the column. -/
theorem row_read (w : BitVec 32) (j : Fin 4096) (l : Fin 1024) :
    broadcastTo S4096x1024 (addi (broadcast S1x1024 w) (iota .tc S1x1024 32 [1] iota_S1x1024_d1_w32))
        broadcasts_S1x1024_S4096x1024 (ix2 j l) = IntOp.addi w (BitVec.ofNat 32 l.val) := by
  rw [broadcastTo_1b_ab_apply]
  show IntOp.addi (broadcast S1x1024 w (ix2 (0 : Fin 1) l)) (iota .tc S1x1024 32 [1] iota_S1x1024_d1_w32 (ix2 (0 : Fin 1) l)) = _
  rw [broadcast_apply, iota_single_apply]

/-- Entry `(j, l)` of trip `k`'s one-hot matrix is the indicator that point `j` of the tile lies in voxel number
    `1024 k + l`. -/
theorem pay3_apply (v6 : Vec Ideal S1x1x4096 .i32) (k : Fin k0_t1_loop.trips) (j : Fin 4096) (l : Fin 1024) :
    k0_pay3 (F := Ideal) v6 k (ix2 j l) = hit (v6 (ix3 (0 : Fin 1) (0 : Fin 1) j)) (1024 * k.val + l.val) := by
  have e : k0_pay3 (F := Ideal) v6 k (ix2 j l)
      = FloatOps.sitofp (F := Ideal) .f32 ((IntOp.cmpi .eq
          (broadcastTo S4096x1024 (shapeCast S4096x1 (shapeCast S4096 v6 shapeCasts_S1x1x4096_S4096) shapeCasts_S4096_S4096x1)
            broadcasts_S4096x1_S4096x1024 (ix2 j l))
          (broadcastTo S4096x1024 (addi (broadcast S1x1024
              (Scalar.muli (Scalar.addi 0#32 (Scalar.muli (Scf.iv 0#32 1#32 k.val) 1#32)) 1024#32))
              (iota .tc S1x1024 32 [1] iota_S1x1024_d1_w32))
            broadcasts_S1x1024_S4096x1024 (ix2 j l))).setWidth 32) := rfl
  rw [e, onehot_scalar, col_read, row_read, chunk_word, chunk_word_add]
  rfl

/-! ## The two accumulations -/

/-- A matrix product into the zero accumulator, for the plain dimension record and operands of any float formats:
    entry `(p, q)` is the sum over the contracted coordinate of the operands' products. -/
theorem matmul_plain_zero_apply' {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- What trip `k` stores into the sums accumulator at `(c, l)`: what was there, plus the sum over the tile's points of
    the feature of channel `c` times the indicator of voxel number `1024 k + l`. -/
theorem pay4_apply (v3 : Vec Ideal S1x64x4096 .f32) (v6 : Vec Ideal S1x1x4096 .i32) (k : Fin k0_t1_loop.trips)
    (v30 : Vec Ideal S64x1024 .f32) (c : Fin 64) (l : Fin 1024) :
    k0_pay4 (F := Ideal) v3 v6 k v30 (ix2 c l)
      = v30 (ix2 c l) + ∑ j : Fin 4096, v3 (ix3 (0 : Fin 1) c j)
          * hit (v6 (ix3 (0 : Fin 1) (0 : Fin 1) j)) (1024 * k.val + l.val) := by
  have e : k0_pay4 (F := Ideal) v3 v6 k v30
      = shapeCast S64x1024 (addf v30 (matmul dot_S64x4096_S4096x1024_S64x1024_1_0_0_1_n_n none
          (truncf .bf16 (shapeCast S64x4096 v3 shapeCasts_S1x64x4096_S64x4096 : FVec Ideal S64x4096 .f32) bitsLt_bf16_f32
            : FVec Ideal S64x4096 .bf16)
          (k0_pay3 (F := Ideal) v6 k) (constant (F := Ideal) S64x1024 .f32 0x00000000#32)))
        shapeCasts_S64x1024_S64x1024 := rfl
  rw [e, shapeCast_self, addf_apply,
    matmul_plain_zero_apply' (M := 64) (K := 4096) (N := 1024) dot_S64x4096_S4096x1024_S64x1024_1_0_0_1_n_n rfl]
  refine congrArg (v30 (ix2 c l) + ·) (Finset.sum_congr rfl fun j _ => ?_)
  rw [truncf_apply, shapeCast_1ab_ab_apply, pay3_apply]

/-- What trip `k` stores into the counts accumulator at `l`: what was there, plus the number of the tile's points in
    voxel number `1024 k + l`. -/
theorem pay5_apply (v6 : Vec Ideal S1x1x4096 .i32) (k : Fin k0_t1_loop.trips) (v37 : Vec Ideal S1x1024 .f32)
    (l : Fin 1024) :
    k0_pay5 (F := Ideal) v6 k v37 (ix2 (0 : Fin 1) l)
      = v37 (ix2 (0 : Fin 1) l) + ∑ j : Fin 4096, hit (v6 (ix3 (0 : Fin 1) (0 : Fin 1) j)) (1024 * k.val + l.val) := by
  have e : k0_pay5 (F := Ideal) v6 k v37
      = shapeCast S1x1024 (addf v37 (extractStridedSlice S1x1024 ![0, 0]
          (matmul dot_S8x4096_S4096x1024_S8x1024_1_0_0_1_n_n none
            (broadcast S8x4096 (Ideal.ofBits .bf16 0x3F80#16) : FVec Ideal S8x4096 .bf16)
            (k0_pay3 (F := Ideal) v6 k) (constant (F := Ideal) S8x1024 .f32 0x00000000#32))
          slices_S8x1024_o0_0_S1x1024)) shapeCasts_S1x1024_S1x1024 := rfl
  rw [e, shapeCast_self, addf_apply]
  refine congrArg (v37 (ix2 (0 : Fin 1) l) + ·) ?_
  refine (slice2_axis0_apply (n0 := 8) (n1 := 1024) (m := 1) 0 _ slices_S8x1024_o0_0_S1x1024 (0 : Fin 1) l (0 : Fin 8)
    rfl).trans ?_
  rw [matmul_plain_zero_apply' (M := 8) (K := 4096) (N := 1024) dot_S8x4096_S4096x1024_S8x1024_1_0_0_1_n_n rfl]
  refine Finset.sum_congr rfl fun j _ => ?_
  rw [broadcast_apply, one_bf16, one_mul, pay3_apply]

/-! ## The average -/

/-- The value stored at the last tile: at `(c, r)` the sum divided by the count raised to at least one. -/
theorem pay6_apply (v14 : Vec Ideal S1x8192 .f32) (v17 : Vec Ideal S64x8192 .f32) (c : Fin 64) (r : Fin 8192) :
    k0_pay6 (F := Ideal) v14 v17 (ix3 (0 : Fin 1) c r)
      = Ideal.div (v17 (ix2 c r)) (max (v14 (ix2 (0 : Fin 1) r)) 1) := by
  have e : k0_pay6 (F := Ideal) v14 v17
      = shapeCast S1x64x8192 (divf v17 (maximumf
          (broadcastTo S64x8192 (shapeCast S1x8192 v14 shapeCasts_S1x8192_S1x8192) broadcasts_S1x8192_S64x8192
            : FVec Ideal S64x8192 .f32)
          (broadcast S64x8192 (Ideal.ofBits .f32 0x3F800000#32) : FVec Ideal S64x8192 .f32)))
        shapeCasts_S64x8192_S1x64x8192 := rfl
  rw [e, shapeCast_ab_1ab_apply, divf_apply, maximumf_apply, shapeCast_self, broadcastTo_1b_ab_apply, broadcast_apply,
    one_f32]

end Cert.Voxel.KPay

end
-- ==== Proof.KCase.lean ====
/-
  What each control case of the body leaves, as values at the ideal instance.

  With `x0` the point's feature block, `x1` its block of voxel numbers, and `X5`, `X6` what the two scratch
  buffers held when the loop was entered, the loop leaves in the sum scratch, at row `ch` and column `r`,
  `X5 (ch, r) + ∑ j, x0 (ch, j) · [x1 j = r]`, and in the count scratch `X6 r + ∑ j, [x1 j = r]`: every column
  lies in exactly one chunk, whose trip adds that chunk's one-hot products to what it loaded.
  The first point of a batch zeroes both scratch buffers before the loop; the last point of a batch stores,
  after the loop, the sums over the counts raised to at least one.
-/
import proofs.«122966_j44074954391645_1_alg».proof.Proof.Gen.KernelIdeal.Frame
import proofs.«122966_j44074954391645_1_alg».proof.Proof.KLoop
import proofs.«122966_j44074954391645_1_alg».proof.Proof.Spec
import proofs.«122966_j44074954391645_1_alg».proof.Proof.KPayload
import Idealize.ShloMosaic.Lib.Pipeline.Value
import Idealize.ShloMosaic.Lib.Pipeline.CanonAppend
import Idealize.ShloMosaic.Lib.Tactic

set_option maxRecDepth 16384

noncomputable section

open Idealize.ShloMosaic Idealize.ShloMosaic.TcCoe Idealize.SL.Sem Idealize.ShloMosaic.ValueIdx

namespace Cert.Voxel.K

open Cert.KernelIdeal Cert.KernelIdeal.Gen Cert.Voxel

/-- The sum scratch after the loop: what it held plus the block's one-hot products. -/
def acc5 (x0 : Vec Ideal S1x64x4096 .f32) (x1 : Vec Ideal S1x1x4096 .i32) (X : Vec Ideal S64x8192 .f32) :
    Vec Ideal S64x8192 .f32 :=
  fun y => X y + ∑ j : Fin 4096, x0 (ix3 (0 : Fin 1) (y 0 : Fin 64) j) * hit (x1 (ix3 (0 : Fin 1) (0 : Fin 1) j)) (y 1).val

/-- The count scratch after the loop: what it held plus the block's hits. -/
def acc6 (x1 : Vec Ideal S1x1x4096 .i32) (X : Vec Ideal S1x8192 .f32) : Vec Ideal S1x8192 .f32 :=
  fun y => X y + ∑ j : Fin 4096, hit (x1 (ix3 (0 : Fin 1) (0 : Fin 1) j)) (y 1).val

/-- The block the last point of a batch stores: sums over counts raised to at least one. -/
def quot (S5 : Vec Ideal S64x8192 .f32) (S6 : Vec Ideal S1x8192 .f32) : Vec Ideal S1x64x8192 .f32 :=
  fun y => Ideal.div (S5 (ix2 (y 1 : Fin 64) (y 2 : Fin 8192))) (max (S6 (ix2 (0 : Fin 1) (y 2 : Fin 8192))) 1)

theorem hz2 : (![0, 0] : Fin 2 → Nat) = fun _ => 0 := funext fun a => by fin_cases a <;> rfl
theorem hz3 : (![0, 0, 0] : Fin 3 → Nat) = fun _ => 0 := funext fun a => by fin_cases a <;> rfl

/-- A chunk store of the sum scratch is the block of `acc5` its rectangle names. -/
theorem piece5_val (x0 : Vec Ideal S1x64x4096 .f32) (x1 : Vec Ideal S1x1x4096 .i32) (X : Vec Ideal S64x8192 .f32)
    (k : Fin k0_t1_loop.trips) (x : (piece5 x0 x1 X k).1.shape.Idx) :
    (piece5 x0 x1 X k).2 x = acc5 x0 x1 X ((piece5 x0 x1 X k).1.emb x) := by
  show k0_pay4 (F := Ideal) x0 x1 k (View.ld X (rect5 k)) x = acc5 x0 x1 X ((rect5 k).emb x)
  obtain ⟨ch, l, rfl⟩ : ∃ (ch : Fin 64) (l : Fin 1024), x = ix2 ch l := ⟨x 0, x 1, eq_ix2 x⟩
  rw [KPay.pay4_apply]
  have e : (rect5 k).emb (ix2 ch l) = (ix2 ch (⟨1024 * k.val + l.val, by
      have := Nat.lt_of_lt_of_le k.isLt k0_t1_abs.2.1; omega⟩ : Fin 8192) : S64x8192.Idx) := by
    funext a
    apply Fin.ext
    rw [Rect.emb_apply]
    simp only [Rect.off_unit, Rect.stride_unit, k0_off1_eq]
    match a with
    | ⟨0, _⟩ => show 0 + 1 * ch.val = ch.val; omega
    | ⟨1, _⟩ => show 1024 * k.val + 1 * l.val = 1024 * k.val + l.val; omega
  show X ((rect5 k).emb (ix2 ch l)) + _ = _
  rw [e]
  rfl

/-- A chunk store of the count scratch is the block of `acc6` its rectangle names. -/
theorem piece6_val (x1 : Vec Ideal S1x1x4096 .i32) (X : Vec Ideal S1x8192 .f32)
    (k : Fin k0_t1_loop.trips) (x : (piece6 x1 X k).1.shape.Idx) :
    (piece6 x1 X k).2 x = acc6 x1 X ((piece6 x1 X k).1.emb x) := by
  show k0_pay5 (F := Ideal) x1 k (View.ld X (rect6 k)) x = acc6 x1 X ((rect6 k).emb x)
  obtain ⟨z, l, rfl⟩ : ∃ (z : Fin 1) (l : Fin 1024), x = ix2 z l := ⟨x 0, x 1, eq_ix2 x⟩
  obtain rfl : z = 0 := Subsingleton.elim _ _
  rw [KPay.pay5_apply]
  have e : (rect6 k).emb (ix2 (0 : Fin 1) l) = (ix2 (0 : Fin 1) (⟨1024 * k.val + l.val, by
      have := Nat.lt_of_lt_of_le k.isLt k0_t1_abs.2.1; omega⟩ : Fin 8192) : S1x8192.Idx) := by
    funext a
    apply Fin.ext
    rw [Rect.emb_apply]
    simp only [Rect.off_unit, Rect.stride_unit, k0_off2_eq]
    match a with
    | ⟨0, _⟩ => show 0 + 1 * 0 = 0; omega
    | ⟨1, _⟩ => show 1024 * k.val + 1 * l.val = 1024 * k.val + l.val; omega
  show X ((rect6 k).emb (ix2 (0 : Fin 1) l)) + _ = _
  rw [e]
  rfl

/-- The sum scratch after all trips, wherever the chunk stores cover: what the loop found plus the block's products. -/
theorem loop5_val (𝒱 : Variants) (c : Dev nD) (bd : Option 𝒱.V) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (x0 : Vec Ideal S1x64x4096 .f32) (x1 : Vec Ideal S1x1x4096 .i32)
    (G5 : BufTy.Contents (Elt Ideal) arg5.view.ty) (G6 : BufTy.Contents (Elt Ideal) arg6.view.ty) (y : S64x8192.Idx)
    (hcov : ∃ p ∈ (pb_k0_t1 (F := Ideal) 𝒱 c bd i arg2 harg2 arg3 harg3 arg4 harg4 arg5 harg5 arg6 harg6 x0 x1 G5 G6 k0_t1_loop.trips).1, y ∈ p.1.set) :
    View.canon (pb_k0_t1 (F := Ideal) 𝒱 c bd i arg2 harg2 arg3 harg3 arg4 harg4 arg5 harg5 arg6 harg6 x0 x1 G5 G6 k0_t1_loop.trips).1 y
      = acc5 x0 x1 (arg5.view.read (Elt Ideal) G5) y :=
  View.canon_apply_of_pieces (acc5 x0 x1 (arg5.view.read (Elt Ideal) G5)) _ (fun p hp x => by
    obtain ⟨k', -, rfl⟩ := (pb_mem 𝒱 c bd i arg2 harg2 arg3 harg3 arg4 harg4 arg5 harg5 arg6 harg6 x0 x1 G5 G6 _ (le_refl _)).1 p hp
    exact piece5_val x0 x1 _ k' x) y hcov

/-- The count scratch after all trips, wherever the chunk stores cover. -/
theorem loop6_val (𝒱 : Variants) (c : Dev nD) (bd : Option 𝒱.V) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (x0 : Vec Ideal S1x64x4096 .f32) (x1 : Vec Ideal S1x1x4096 .i32)
    (G5 : BufTy.Contents (Elt Ideal) arg5.view.ty) (G6 : BufTy.Contents (Elt Ideal) arg6.view.ty) (y : S1x8192.Idx)
    (hcov : ∃ p ∈ (pb_k0_t1 (F := Ideal) 𝒱 c bd i arg2 harg2 arg3 harg3 arg4 harg4 arg5 harg5 arg6 harg6 x0 x1 G5 G6 k0_t1_loop.trips).2, y ∈ p.1.set) :
    View.canon (pb_k0_t1 (F := Ideal) 𝒱 c bd i arg2 harg2 arg3 harg3 arg4 harg4 arg5 harg5 arg6 harg6 x0 x1 G5 G6 k0_t1_loop.trips).2 y
      = acc6 x1 (arg6.view.read (Elt Ideal) G6) y :=
  View.canon_apply_of_pieces (acc6 x1 (arg6.view.read (Elt Ideal) G6)) _ (fun p hp x => by
    obtain ⟨k', -, rfl⟩ := (pb_mem 𝒱 c bd i arg2 harg2 arg3 harg3 arg4 harg4 arg5 harg5 arg6 harg6 x0 x1 G5 G6 _ (le_refl _)).2 p hp
    exact piece6_val x1 _ k' x) y hcov

/-! ## A point in the middle of a batch -/

theorem caseB5 (c : Dev nD) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (hc0 : ¬cond0_0 i) (hc1 : ¬cond0_1 i)
    (x0 : Vec Ideal S1x64x4096 .f32) (x1 : Vec Ideal S1x1x4096 .i32) (xs0 : Vec Ideal S64x8192 .f32) (xs1 : Vec Ideal S1x8192 .f32) :
    sout0_B_0 (F := Ideal) c i arg2 harg2 arg3 harg3 arg4 harg4 arg5 harg5 arg6 harg6 hc0 hc1 x0 x1 xs0 xs1 = acc5 x0 x1 xs0 := by
  unfold sout0_B_0
  rw [View.read_writes_eq_canon _ _ _ (scover0_B_0 c i arg2 harg2 arg3 harg3 arg4 harg4 arg5 harg5 arg6 harg6 hc0 hc1 x0 x1 xs0 xs1)]
  funext y
  have hcov := scover0_B_0 (F := Ideal) c i arg2 harg2 arg3 harg3 arg4 harg4 arg5 harg5 arg6 harg6 hc0 hc1 x0 x1 xs0 xs1 y
  unfold kernelRun0_B at hcov ⊢
  dsimp only at hcov ⊢
  simp only [View.readAt_eq_ld, harg2.read_unread, harg3.read_unread, View.ld_unit_zero (S := S1x64x4096) hz3, View.ld_unit_zero (S := S1x1x4096) hz3] at hcov ⊢
  exact (loop5_val Variants.none c none i arg2 harg2 arg3 harg3 arg4 harg4 arg5 harg5 arg6 harg6 x0 x1 _ _ y hcov).trans
    (by rw [harg5.read_unread])

theorem caseB6 (c : Dev nD) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (hc0 : ¬cond0_0 i) (hc1 : ¬cond0_1 i)
    (x0 : Vec Ideal S1x64x4096 .f32) (x1 : Vec Ideal S1x1x4096 .i32) (xs0 : Vec Ideal S64x8192 .f32) (xs1 : Vec Ideal S1x8192 .f32) :
    sout0_B_1 (F := Ideal) c i arg2 harg2 arg3 harg3 arg4 harg4 arg5 harg5 arg6 harg6 hc0 hc1 x0 x1 xs0 xs1 = acc6 x1 xs1 := by
  unfold sout0_B_1
  rw [View.read_writes_eq_canon _ _ _ (scover0_B_1 c i arg2 harg2 arg3 harg3 arg4 harg4 arg5 harg5 arg6 harg6 hc0 hc1 x0 x1 xs0 xs1)]
  funext y
  have hcov := scover0_B_1 (F := Ideal) c i arg2 harg2 arg3 harg3 arg4 harg4 arg5 harg5 arg6 harg6 hc0 hc1 x0 x1 xs0 xs1 y
  unfold kernelRun0_B at hcov ⊢
  dsimp only at hcov ⊢
  simp only [View.readAt_eq_ld, harg2.read_unread, harg3.read_unread, View.ld_unit_zero (S := S1x64x4096) hz3, View.ld_unit_zero (S := S1x1x4096) hz3] at hcov ⊢
  exact (loop6_val Variants.none c none i arg2 harg2 arg3 harg3 arg4 harg4 arg5 harg5 arg6 harg6 x0 x1 _ _ y hcov).trans
    (by rw [harg6.read_unread])

/-! ## The last point of a batch -/

theorem caseC5 (c : Dev nD) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (hc0 : ¬cond0_0 i) (hc1 : cond0_1 i)
    (x0 : Vec Ideal S1x64x4096 .f32) (x1 : Vec Ideal S1x1x4096 .i32) (xs0 : Vec Ideal S64x8192 .f32) (xs1 : Vec Ideal S1x8192 .f32) :
    sout0_C_0 (F := Ideal) c i arg2 harg2 arg3 harg3 arg4 harg4 arg5 harg5 arg6 harg6 hc0 hc1 x0 x1 xs0 xs1 = acc5 x0 x1 xs0 := by
  unfold sout0_C_0
  rw [View.read_writes_eq_canon _ _ _ (scover0_C_0 c i arg2 harg2 arg3 harg3 arg4 harg4 arg5 harg5 arg6 harg6 hc0 hc1 x0 x1 xs0 xs1)]
  funext y
  have hcov := scover0_C_0 (F := Ideal) c i arg2 harg2 arg3 harg3 arg4 harg4 arg5 harg5 arg6 harg6 hc0 hc1 x0 x1 xs0 xs1 y
  unfold kernelRun0_C at hcov ⊢
  dsimp only at hcov ⊢
  simp only [View.readAt_eq_ld, harg2.read_unread, harg3.read_unread, View.ld_unit_zero (S := S1x64x4096) hz3, View.ld_unit_zero (S := S1x1x4096) hz3] at hcov ⊢
  exact (loop5_val Variants.none c none i arg2 harg2 arg3 harg3 arg4 harg4 arg5 harg5 arg6 harg6 x0 x1 _ _ y hcov).trans
    (by rw [harg5.read_unread])

theorem caseC6 (c : Dev nD) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (hc0 : ¬cond0_0 i) (hc1 : cond0_1 i)
    (x0 : Vec Ideal S1x64x4096 .f32) (x1 : Vec Ideal S1x1x4096 .i32) (xs0 : Vec Ideal S64x8192 .f32) (xs1 : Vec Ideal S1x8192 .f32) :
    sout0_C_1 (F := Ideal) c i arg2 harg2 arg3 harg3 arg4 harg4 arg5 harg5 arg6 harg6 hc0 hc1 x0 x1 xs0 xs1 = acc6 x1 xs1 := by
  unfold sout0_C_1
  rw [View.read_writes_eq_canon _ _ _ (scover0_C_1 c i arg2 harg2 arg3 harg3 arg4 harg4 arg5 harg5 arg6 harg6 hc0 hc1 x0 x1 xs0 xs1)]
  funext y
  have hcov := scover0_C_1 (F := Ideal) c i arg2 harg2 arg3 harg3 arg4 harg4 arg5 harg5 arg6 harg6 hc0 hc1 x0 x1 xs0 xs1 y
  unfold kernelRun0_C at hcov ⊢
  dsimp only at hcov ⊢
  simp only [View.readAt_eq_ld, harg2.read_unread, harg3.read_unread, View.ld_unit_zero (S := S1x64x4096) hz3, View.ld_unit_zero (S := S1x1x4096) hz3] at hcov ⊢
  exact (loop6_val Variants.none c none i arg2 harg2 arg3 harg3 arg4 harg4 arg5 harg5 arg6 harg6 x0 x1 _ _ y hcov).trans
    (by rw [harg6.read_unread])

/-- The last store's payload over any two vectors known to be the accumulated sums and counts. -/
theorem pay6_quot (V14 : Vec Ideal S1x8192 .f32) (V17 : Vec Ideal S64x8192 .f32) (S5 : Vec Ideal S64x8192 .f32)
    (S6 : Vec Ideal S1x8192 .f32) (h14 : V14 = S6) (h17 : V17 = S5) : k0_pay6 (F := Ideal) V14 V17 = quot S5 S6 := by
  subst h14 h17
  funext y
  obtain ⟨z, ch, r, rfl⟩ : ∃ (z : Fin 1) (ch : Fin 64) (r : Fin 8192), y = ix3 z ch r := ⟨y 0, y 1, y 2, eq_ix3 y⟩
  obtain rfl : z = 0 := Subsingleton.elim _ _
  rw [KPay.pay6_apply]
  rfl

/-- A whole-buffer load after stores that cover the buffer reads what the stores left, whatever was there before. -/
theorem load_cov6 (arg6 : Memref sig .tc .vmem S1x8192 .f32) (f : BufTy.Contents (Elt Ideal) arg6.view.ty)
    (L : List (View.Piece (Elt Ideal) S1x8192 .f32)) (hL : ∀ y, ∃ p ∈ L, y ∈ p.1.set) :
    View.readAt (Elt Ideal) arg6.view (Rect.unit ![0, 0] S1x8192.size inb_S1x8192_S1x8192_0_0).toLoadRect
      (arg6.view.writes (Elt Ideal) f L) = View.canon L := by
  rw [View.readAt_eq_ld, View.ld_unit_zero hz2, View.read_writes_eq_canon _ _ _ hL]

theorem load_cov5 (arg5 : Memref sig .tc .vmem S64x8192 .f32) (f : BufTy.Contents (Elt Ideal) arg5.view.ty)
    (L : List (View.Piece (Elt Ideal) S64x8192 .f32)) (hL : ∀ y, ∃ p ∈ L, y ∈ p.1.set) :
    View.readAt (Elt Ideal) arg5.view (Rect.unit ![0, 0] S64x8192.size inb_S64x8192_S64x8192_0_0).toLoadRect
      (arg5.view.writes (Elt Ideal) f L) = View.canon L := by
  rw [View.readAt_eq_ld, View.ld_unit_zero hz2, View.read_writes_eq_canon _ _ _ hL]

/-- The block stored after the loop: the sums just accumulated over the counts just accumulated, raised to one. -/
theorem caseC2 (c : Dev nD) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (hc0 : ¬cond0_0 i) (hc1 : cond0_1 i)
    (x0 : Vec Ideal S1x64x4096 .f32) (x1 : Vec Ideal S1x1x4096 .i32) (xs0 : Vec Ideal S64x8192 .f32) (xs1 : Vec Ideal S1x8192 .f32) :
    out0_C_2 (F := Ideal) c i arg2 harg2 arg3 harg3 arg4 harg4 arg5 harg5 arg6 harg6 hc0 hc1 x0 x1 xs0 xs1 = quot (acc5 x0 x1 xs0) (acc6 x1 xs1) := by
  have cov5 := scover0_C_0 (F := Ideal) c i arg2 harg2 arg3 harg3 arg4 harg4 arg5 harg5 arg6 harg6 hc0 hc1 x0 x1 xs0 xs1
  have cov6 := scover0_C_1 (F := Ideal) c i arg2 harg2 arg3 harg3 arg4 harg4 arg5 harg5 arg6 harg6 hc0 hc1 x0 x1 xs0 xs1
  have k5 : View.canon (kernelRun0_C (F := Ideal) c i arg2 harg2 arg3 harg3 arg4 harg4 arg5 harg5 arg6 harg6 hc0 hc1 x0 x1 xs0 xs1).2.1 = acc5 x0 x1 xs0 := by
    have h := caseC5 c i arg2 harg2 arg3 harg3 arg4 harg4 arg5 harg5 arg6 harg6 hc0 hc1 x0 x1 xs0 xs1
    unfold sout0_C_0 at h
    rwa [View.read_writes_eq_canon _ _ _ cov5] at h
  have k6 : View.canon (kernelRun0_C (F := Ideal) c i arg2 harg2 arg3 harg3 arg4 harg4 arg5 harg5 arg6 harg6 hc0 hc1 x0 x1 xs0 xs1).2.2.1 = acc6 x1 xs1 := by
    have h := caseC6 c i arg2 harg2 arg3 harg3 arg4 harg4 arg5 harg5 arg6 harg6 hc0 hc1 x0 x1 xs0 xs1
    unfold sout0_C_1 at h
    rwa [View.read_writes_eq_canon _ _ _ cov6] at h
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3]
  refine pay6_quot _ _ _ _ ?_ ?_
  · exact (load_cov6 arg6 _ _ cov6).trans k6
  · exact (load_cov5 arg5 _ _ cov5).trans k5

/-! ## The first point of a batch -/

/-- A buffer filled by one whole store of zeros reads zero. -/
theorem zero5 (arg5 : Memref sig .tc .vmem S64x8192 .f32) :
    arg5.view.read (Elt Ideal) (arg5.view.writes (Elt Ideal) arg5.view.junk
      [(⟨Rect.unit ![0, 0] S64x8192.size inb_S64x8192_S64x8192_0_0, k0_pay1 (F := Ideal)⟩ : View.Piece (Elt Ideal) S64x8192 .f32)])
      = fun _ => 0 := by
  rw [View.read_writes_eq_canon _ _ _ (fun y => ⟨_, List.mem_singleton_self _, View.mem_set_unit_zero hz2 inb_S64x8192_S64x8192_0_0 y⟩),
    View.canon_unit_zero hz2]
  exact funext KPay.pay1_apply

theorem zero6 (arg6 : Memref sig .tc .vmem S1x8192 .f32) :
    arg6.view.read (Elt Ideal) (arg6.view.writes (Elt Ideal) arg6.view.junk
      [(⟨Rect.unit ![0, 0] S1x8192.size inb_S1x8192_S1x8192_0_0, k0_pay2 (F := Ideal)⟩ : View.Piece (Elt Ideal) S1x8192 .f32)])
      = fun _ => 0 := by
  rw [View.read_writes_eq_canon _ _ _ (fun y => ⟨_, List.mem_singleton_self _, View.mem_set_unit_zero hz2 inb_S1x8192_S1x8192_0_0 y⟩),
    View.canon_unit_zero hz2]
  exact funext KPay.pay2_apply

theorem caseA5 (c : Dev nD) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (hc0 : cond0_0 i) (hc1 : ¬cond0_1 i)
    (x0 : Vec Ideal S1x64x4096 .f32) (x1 : Vec Ideal S1x1x4096 .i32) :
    sout0_A_0 (F := Ideal) c i arg2 harg2 arg3 harg3 arg4 harg4 arg5 harg5 arg6 harg6 hc0 hc1 x0 x1 = acc5 x0 x1 (fun _ => 0) := by
  unfold sout0_A_0
  rw [View.read_writes_eq_canon _ _ _ (scover0_A_0 c i arg2 harg2 arg3 harg3 arg4 harg4 arg5 harg5 arg6 harg6 hc0 hc1 x0 x1)]
  funext y
  unfold kernelRun0_A
  dsimp only
  sl_unfold_words
  simp only [View.readAt_eq_ld, harg2.read_unread, harg3.read_unread, View.ld_unit_zero (S := S1x64x4096) hz3, View.ld_unit_zero (S := S1x1x4096) hz3]
  have hcov := View.cover_of_tiledL (pb_k0_t1 (F := Ideal) Variants.none c none i arg2 harg2 arg3 harg3 arg4 harg4 arg5 harg5 arg6 harg6 x0 x1
      (arg5.view.writes (Elt Ideal) arg5.view.junk [(⟨Rect.unit ![0, 0] S64x8192.size inb_S64x8192_S64x8192_0_0, k0_pay1 (F := Ideal)⟩ : View.Piece (Elt Ideal) S64x8192 .f32)])
      (arg6.view.writes (Elt Ideal) arg6.view.junk [(⟨Rect.unit ![0, 0] S1x8192.size inb_S1x8192_S1x8192_0_0, k0_pay2 (F := Ideal)⟩ : View.Piece (Elt Ideal) S1x8192 .f32)])
      k0_t1_loop.trips).1 S64x1024.size (by sl_kernel_rfl) y
  refine (View.canon_append_of_pieces (acc5 x0 x1 (fun _ => 0)) _ _ (fun p hp x => ?_) y hcov)
  obtain ⟨k', -, rfl⟩ := (pb_mem Variants.none c none i arg2 harg2 arg3 harg3 arg4 harg4 arg5 harg5 arg6 harg6 x0 x1 _ _ _ (le_refl _)).1 p hp
  rw [zero5]
  exact piece5_val x0 x1 (fun _ => 0) k' x

theorem caseA6 (c : Dev nD) (i : grid0.Coords) (arg2 : Memref sig .tc .vmem S1x64x4096 .f32) (harg2 : arg2.IsWhole) (arg3 : Memref sig .tc .vmem S1x1x4096 .i32) (harg3 : arg3.IsWhole) (arg4 : Memref sig .tc .vmem S1x64x8192 .f32) (harg4 : arg4.IsWhole) (arg5 : Memref sig .tc .vmem S64x8192 .f32) (harg5 : arg5.IsWhole) (arg6 : Memref sig .tc .vmem S1x8192 .f32) (harg6 : arg6.IsWhole) (hc0 : cond0_0 i) (hc1 : ¬cond0_1 i)
    (x0 : Vec Ideal S1x64x4096 .f32) (x1 : Vec Ideal S1x1x4096 .i32) :
    sout0_A_1 (F := Ideal) c i arg2 harg2 arg3 harg3 arg4 harg4 arg5 harg5 arg6 harg6 hc0 hc1 x0 x1 = acc6 x1 (fun _ => 0) := by
  unfold sout0_A_1
  rw [View.read_writes_eq_canon _ _ _ (scover0_A_1 c i arg2 harg2 arg3 harg3 arg4 harg4 arg5 harg5 arg6 harg6 hc0 hc1 x0 x1)]
  funext y
  unfold kernelRun0_A
  dsimp only
  sl_unfold_words
  simp only [View.readAt_eq_ld, harg2.read_unread, harg3.read_unread, View.ld_unit_zero (S := S1x64x4096) hz3, View.ld_unit_zero (S := S1x1x4096) hz3]
  have hcov := View.cover_of_tiledL (pb_k0_t1 (F := Ideal) Variants.none c none i arg2 harg2 arg3 harg3 arg4 harg4 arg5 harg5 arg6 harg6 x0 x1
      (arg5.view.writes (Elt Ideal) arg5.view.junk [(⟨Rect.unit ![0, 0] S64x8192.size inb_S64x8192_S64x8192_0_0, k0_pay1 (F := Ideal)⟩ : View.Piece (Elt Ideal) S64x8192 .f32)])
      (arg6.view.writes (Elt Ideal) arg6.view.junk [(⟨Rect.unit ![0, 0] S1x8192.size inb_S1x8192_S1x8192_0_0, k0_pay2 (F := Ideal)⟩ : View.Piece (Elt Ideal) S1x8192 .f32)])
      k0_t1_loop.trips).2 S1x1024.size (by sl_kernel_rfl) y
  refine (View.canon_append_of_pieces (acc6 x1 (fun _ => 0)) _ _ (fun p hp x => ?_) y hcov)
  obtain ⟨k', -, rfl⟩ := (pb_mem Variants.none c none i arg2 harg2 arg3 harg3 arg4 harg4 arg5 harg5 arg6 harg6 x0 x1 _ _ _ (le_refl _)).2 p hp
  rw [zero6]
  exact piece6_val x1 (fun _ => 0) k' x

end Cert.Voxel.K

end
-- ==== Proof.KSum.lean ====
/-
  Two regroupings of finite sums.

  A sum over the 65536 points of a batch is the sum, over its 16 tiles of 4096 points, of the sums over each tile:
  point number `4096 T + j` is point `j` of tile `T`.  And an accumulator that starts at zero and gains one term per
  step holds, after step `T`, the sum of the terms of steps `0, …, T`.
-/
import Idealize.ShloMosaic.PureOps.Ideal

namespace Cert.Voxel.KSum

/-- A sum over `Fin N`, for `N` the product `16 · 4096`, taken tile by tile. -/
theorem sum_tiles_aux {M : Type*} [AddCommMonoid M] (N : ℕ) (hN : N = 16 * 4096) (f : Fin N → M) :
    ∑ n : Fin N, f n
      = ∑ T : Fin 16, ∑ j : Fin 4096, f ⟨4096 * T.val + j.val, by have := T.isLt; have := j.isLt; omega⟩ := by
  subst hN
  rw [← Equiv.sum_comp finProdFinEquiv f, Fintype.sum_prod_type]
  refine Finset.sum_congr rfl fun T _ => Finset.sum_congr rfl fun j _ => congrArg f (Fin.ext ?_)
  show j.val + 4096 * T.val = 4096 * T.val + j.val
  omega

/-- The sum over the 65536 points is the sum over the 16 tiles of the sums over each tile's 4096 points. -/
theorem sum_tiles {M : Type*} [AddCommMonoid M] (f : Fin 65536 → M) :
    ∑ n : Fin 65536, f n
      = ∑ T : Fin 16, ∑ j : Fin 4096, f ⟨4096 * T.val + j.val, by have := T.isLt; have := j.isLt; omega⟩ :=
  sum_tiles_aux 65536 (by norm_num) f

/-- An accumulation started at zero: after step `T` it holds zero plus the terms of steps `0, …, T`, added in order. -/
def fold {M : Type*} [AddCommMonoid M] (g : ℕ → M) : ℕ → M
  | 0 => 0 + g 0
  | T + 1 => fold g T + g (T + 1)

/-- The accumulation after step `T` is the sum of the terms of steps `0, …, T`. -/
theorem fold_eq {M : Type*} [AddCommMonoid M] (g : ℕ → M) (T : ℕ) : fold g T = ∑ T' ∈ Finset.range (T + 1), g T' := by
  induction T with
  | zero => rw [fold, zero_add, Finset.sum_range_one]
  | succ T ih => rw [fold, ih, Finset.sum_range_succ g (T + 1)]

/-- Sixteen steps whose terms are indexed by `Fin 16` accumulate the sum over `Fin 16`. -/
theorem fold_fin16 {M : Type*} [AddCommMonoid M] (h : Fin 16 → M) :
    fold (fun T => if hT : T < 16 then h ⟨T, hT⟩ else 0) 15 = ∑ T : Fin 16, h T := by
  rw [fold_eq]
  exact (Finset.sum_fin_eq_sum_range h).symm

end Cert.Voxel.KSum
-- ==== Proof.KInv.lean ====
/-
  The scratch buffers point by point.

  Within a batch the sixteen points run in order.  The first zeroes both scratch buffers and adds its block's
  products; each later point adds its own block's products to what the point before left; the last also stores
  the quotient block.  So after the point at tile `T` of batch `b` the sum scratch holds the left fold
  `(((0 + s₀) + s₁) + …) + s_T` of the tiles' block sums, the count scratch likewise.
-/
import proofs.«122966_j44074954391645_1_alg».proof.Proof.Gen.KernelIdeal.Frame
import proofs.«122966_j44074954391645_1_alg».proof.Proof.KCase
import proofs.«122966_j44074954391645_1_alg».proof.Proof.KSum

set_option maxRecDepth 16384

noncomputable section

open Idealize.ShloMosaic Idealize.ShloMosaic.TcCoe Idealize.SL.Sem Idealize.ShloMosaic.ValueIdx

namespace Cert.Voxel.K

open Cert.KernelIdeal Cert.KernelIdeal.Gen Cert.Voxel

variable (m : (ℓ : Loc nD τ sig) → Buf (Elt Ideal) ℓ)

/-- What the sum scratch and the count scratch hold after the point at position `n`. -/
def chain (c : Dev nD) : (n : ℕ) → n < cfg0.N → Vec Ideal S64x8192 .f32 × Vec Ideal S1x8192 .f32
  | 0, h => (acc5 (iblk m c 0 ⟨0, h⟩) (iblk m c 1 ⟨0, h⟩) (fun _ => 0), acc6 (iblk m c 1 ⟨0, h⟩) (fun _ => 0))
  | n + 1, h =>
    if (n + 1) % 16 = 0 then
      (acc5 (iblk m c 0 ⟨n + 1, h⟩) (iblk m c 1 ⟨n + 1, h⟩) (fun _ => 0), acc6 (iblk m c 1 ⟨n + 1, h⟩) (fun _ => 0))
    else
      (acc5 (iblk m c 0 ⟨n + 1, h⟩) (iblk m c 1 ⟨n + 1, h⟩) (chain c n (Nat.lt_of_succ_lt h)).1,
        acc6 (iblk m c 1 ⟨n + 1, h⟩) (chain c n (Nat.lt_of_succ_lt h)).2)

/-- At the first point of a batch both scratch buffers start from zero. -/
theorem chain_first (c : Dev nD) : ∀ (n : ℕ) (h : n < cfg0.N), n % 16 = 0 →
    chain m c n h = (acc5 (iblk m c 0 ⟨n, h⟩) (iblk m c 1 ⟨n, h⟩) (fun _ => 0), acc6 (iblk m c 1 ⟨n, h⟩) (fun _ => 0))
  | 0, _, _ => rfl
  | n + 1, h, h0 => by rw [chain, if_pos h0]

/-- At any other point they continue from what the point before left. -/
theorem chain_next (c : Dev nD) (n : ℕ) (h : n + 1 < cfg0.N) (h0 : ¬(n + 1) % 16 = 0) :
    chain m c (n + 1) h
      = (acc5 (iblk m c 0 ⟨n + 1, h⟩) (iblk m c 1 ⟨n + 1, h⟩) (chain m c n (Nat.lt_of_succ_lt h)).1,
          acc6 (iblk m c 1 ⟨n + 1, h⟩) (chain m c n (Nat.lt_of_succ_lt h)).2) := by
  rw [chain, if_neg h0]

/-- The scratch contents the generated run carries from point to point are this chain. -/
theorem outsAt_eq (c : Dev nD) : ∀ (n : ℕ) (h : n < cfg0.N), (outsAt0 m c n h).2 = chain m c n h
  | 0, h => by
    rw [outsAt0_A m c ⟨0, h⟩ rfl (by show ¬(0 % 16 = 15); decide)]
    dsimp only
    rw [caseA5, caseA6]
    rfl
  | n + 1, h => by
    by_cases h0 : (n + 1) % 16 = 0
    · have h1 : ¬(n + 1) % 16 = 15 := by omega
      rw [outsAt0_A m c ⟨n + 1, h⟩ h0 h1, chain_first m c (n + 1) h h0]
      dsimp only
      rw [caseA5, caseA6]
    · have ih := outsAt_eq c n (Nat.lt_of_succ_lt h)
      rw [chain_next m c n h h0]
      by_cases h1 : (n + 1) % 16 = 15
      · rw [outsAt0_C m c ⟨n + 1, h⟩ h0 h1]
        dsimp only
        rw [caseC5, caseC6]
        show (acc5 _ _ (outsAt0 m c n _).2.1, acc6 _ (outsAt0 m c n _).2.2) = _
        rw [ih]
      · rw [outsAt0_B m c ⟨n + 1, h⟩ h0 h1]
        dsimp only
        rw [caseB5, caseB6]
        show (acc5 _ _ (outsAt0 m c n _).2.1, acc6 _ (outsAt0 m c n _).2.2) = _
        rw [ih]

/-- At the last point of a batch the output's staging buffer is left holding the quotient block. -/
theorem out_eq (c : Dev nD) (t : Fin cfg0.N) (h1 : t.val % 16 = 15) :
    (outsAt0 m c t.val t.isLt).1 = quot (chain m c t.val t.isLt).1 (chain m c t.val t.isLt).2 := by
  have h0 : ¬t.val % 16 = 0 := by omega
  have e := outsAt_eq m c t.val t.isLt
  rw [outsAt0_C m c t h0 h1] at e ⊢
  dsimp only at e ⊢
  rw [caseC5, caseC6] at e
  rw [caseC2, ← e]

/-- A block's products summed over its 4096 points, and its hits counted. -/
def blockSum5 (x0 : Vec Ideal S1x64x4096 .f32) (x1 : Vec Ideal S1x1x4096 .i32) : Vec Ideal S64x8192 .f32 :=
  fun y => ∑ j : Fin 4096, x0 (ix3 (0 : Fin 1) (y 0 : Fin 64) j) * hit (x1 (ix3 (0 : Fin 1) (0 : Fin 1) j)) (y 1).val
def blockSum6 (x1 : Vec Ideal S1x1x4096 .i32) : Vec Ideal S1x8192 .f32 :=
  fun y => ∑ j : Fin 4096, hit (x1 (ix3 (0 : Fin 1) (0 : Fin 1) j)) (y 1).val

/-- The block sum of the point at position `n`, for the sum scratch and for the count scratch. -/
def s5 (c : Dev nD) (n : ℕ) (h : n < cfg0.N) : Vec Ideal S64x8192 .f32 :=
  blockSum5 (iblk m c 0 ⟨n, h⟩) (iblk m c 1 ⟨n, h⟩)
def s6 (c : Dev nD) (n : ℕ) (h : n < cfg0.N) : Vec Ideal S1x8192 .f32 :=
  blockSum6 (iblk m c 1 ⟨n, h⟩)

theorem lt_N {b T : ℕ} (hb : b < 16) (hT : T < 16) : 16 * b + T < cfg0.N :=
  lt_of_lt_of_eq (by omega : 16 * b + T < 256) N_0.symm

/-- After tile `T` of batch `b` the scratch buffers hold the left folds of the block sums of tiles `0 … T`. -/
theorem chain_fold (c : Dev nD) (b : ℕ) (hb : b < 16) : ∀ (T : ℕ) (hT : T < 16),
    (∀ y, (chain m c (16 * b + T) (lt_N hb hT)).1 y
        = KSum.fold (fun T' => if hT' : T' < 16 then s5 m c (16 * b + T') (lt_N hb hT') y else 0) T)
    ∧ (∀ y, (chain m c (16 * b + T) (lt_N hb hT)).2 y
        = KSum.fold (fun T' => if hT' : T' < 16 then s6 m c (16 * b + T') (lt_N hb hT') y else 0) T)
  | 0, hT => by
    rw [chain_first m c (16 * b + 0) (lt_N hb hT) (by omega)]
    refine ⟨fun y => ?_, fun y => ?_⟩
    · show _ = (0 : EReal) + (if hT' : 0 < 16 then s5 m c (16 * b + 0) (lt_N hb hT') y else 0)
      rw [dif_pos hT]; rfl
    · show _ = (0 : EReal) + (if hT' : 0 < 16 then s6 m c (16 * b + 0) (lt_N hb hT') y else 0)
      rw [dif_pos hT]; rfl
  | T + 1, hT => by
    obtain ⟨ih5, ih6⟩ := chain_fold c b hb T (Nat.lt_of_succ_lt hT)
    have e := chain_next m c (16 * b + T) (lt_N hb hT) (by omega)
    refine ⟨fun y => ?_, fun y => ?_⟩
    · show (chain m c (16 * b + T + 1) _).1 y = KSum.fold _ T + (if hT' : T + 1 < 16 then s5 m c (16 * b + (T + 1)) (lt_N hb hT') y else 0)
      rw [e, dif_pos hT, ← ih5 y]; rfl
    · show (chain m c (16 * b + T + 1) _).2 y = KSum.fold _ T + (if hT' : T + 1 < 16 then s6 m c (16 * b + (T + 1)) (lt_N hb hT') y else 0)
      rw [e, dif_pos hT, ← ih6 y]; rfl

/-- At a batch's last point: the sums of all sixteen tiles' block sums. -/
theorem chain_last (c : Dev nD) (b : ℕ) (hb : b < 16) :
    (∀ y, (chain m c (16 * b + 15) (lt_N hb (by decide))).1 y = ∑ T : Fin 16, s5 m c (16 * b + T.val) (lt_N hb T.isLt) y)
    ∧ (∀ y, (chain m c (16 * b + 15) (lt_N hb (by decide))).2 y = ∑ T : Fin 16, s6 m c (16 * b + T.val) (lt_N hb T.isLt) y) := by
  obtain ⟨h5, h6⟩ := chain_fold m c b hb 15 (by decide)
  exact ⟨fun y => (h5 y).trans (KSum.fold_fin16 fun T : Fin 16 => s5 m c (16 * b + T.val) (lt_N hb T.isLt) y),
    fun y => (h6 y).trans (KSum.fold_fin16 fun T : Fin 16 => s6 m c (16 * b + T.val) (lt_N hb T.isLt) y)⟩

end Cert.Voxel.K

end
-- ==== Proof.KBlock.lean ====
/-
  Where the three windows of the pipeline sit in their arrays.

  The grid has 16 × 16 points; point `t` works on batch `t / 16` and on tile `t % 16` of that batch's 65536 points.
  The features' block at `t` is channels 0 … 63 of points `4096 (t % 16) … 4096 (t % 16) + 4095` of batch `t / 16`; the
  voxel words' block is the same points of the same batch; the result's block is the whole [64, 8192] slab of batch
  `t / 16`, written back at the batch's last tile.  Every index of the result array lies in the slab of its batch, which
  the point `16 b + 15` writes back.
-/
import proofs.«122966_j44074954391645_1_alg».proof.Proof.Gen.KernelIdeal.Frame
import Idealize.ShloMosaic.Lib.Pipeline.Value
import Idealize.ShloMosaic.Lib.ValueIdx

noncomputable section

namespace Cert.Voxel.KBlock

open Cert.KernelIdeal Cert.KernelIdeal.Gen
open Idealize.ShloMosaic Idealize.ShloMosaic.ValueIdx Idealize.ShloMosaic.TcCoe Idealize.SL.Sem

/-- The block indices of the three windows at every point of the grid: batch `t / 16` on the leading axis; on the last
    axis tile `t % 16` for the two inputs and block 0 for the result. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 0 :=
  (by decide +kernel : ∀ t : Fin grid0.N, _)

/-- A point's batch is one of the 16. -/
theorem batch_lt (t : Fin cfg0.N) : t.val / 16 < 16 := by
  have := t.isLt; have hN : cfg0.N = 256 := N_0; omega

/-- Point `j` of tile `t % 16` is one of the batch's 65536 points. -/
theorem point_lt (t : Fin cfg0.N) (j : Fin 4096) : 4096 * (t.val % 16) + j.val < 65536 := by
  have := j.isLt; omega

/-! ## The input blocks -/

/-- The features' block at point `t`, of any array `G`: channel `ch`, point `j` of the tile. -/
theorem blk0_read (G : S16x64x65536.Idx → EReal) (t : Fin cfg0.N) (ch : Fin 64) (j : Fin 4096) :
    ((cfg0.win 0).blk t).view.read (Elt Ideal) G (ix3 (0 : Fin 1) ch j)
      = G (ix3 (⟨t.val / 16, batch_lt t⟩ : Fin 16) ch (⟨4096 * (t.val % 16) + j.val, point_lt t j⟩ : Fin 65536)) := by
  obtain ⟨e0, e1, e2, -⟩ := idx_facts t
  rw [View.read_apply]
  show G (((cfg0.win 0).blk t).view.emb (ix3 (0 : Fin 1) ch j)) = G _
  refine congrArg G (funext fun a => Fin.ext ?_)
  match a with
  | ⟨0, _⟩ => show win0_0.index t (0 : Fin 3) * 1 + 1 * 0 = t.val / 16; rw [e0]; omega
  | ⟨1, _⟩ => show win0_0.index t (1 : Fin 3) * 64 + 1 * ch.val = ch.val; rw [e1]; omega
  | ⟨2, _⟩ => show win0_0.index t (2 : Fin 3) * 4096 + 1 * j.val = 4096 * (t.val % 16) + j.val; rw [e2]; omega

/-- The voxel words' block at point `t`, of any array `G`: point `j` of the tile. -/
theorem blk1_read (G : S16x1x65536.Idx → BitVec 32) (t : Fin cfg0.N) (j : Fin 4096) :
    ((cfg0.win 1).blk t).view.read (Elt Ideal) G (ix3 (0 : Fin 1) (0 : Fin 1) j)
      = G (ix3 (⟨t.val / 16, batch_lt t⟩ : Fin 16) (0 : Fin 1) (⟨4096 * (t.val % 16) + j.val, point_lt t j⟩ : Fin 65536)) := by
  obtain ⟨-, -, -, e0, e1, e2, -⟩ := idx_facts t
  rw [View.read_apply]
  show G (((cfg0.win 1).blk t).view.emb (ix3 (0 : Fin 1) (0 : Fin 1) j)) = G _
  refine congrArg G (funext fun a => Fin.ext ?_)
  match a with
  | ⟨0, _⟩ => show win0_1.index t (0 : Fin 3) * 1 + 1 * 0 = t.val / 16; rw [e0]; omega
  | ⟨1, _⟩ => show win0_1.index t (1 : Fin 3) * 1 + 1 * 0 = 0; rw [e1]
  | ⟨2, _⟩ => show win0_1.index t (2 : Fin 3) * 4096 + 1 * j.val = 4096 * (t.val % 16) + j.val; rw [e2]; omega

/-- The features the body loads at point `t`, read against the array the region finds. -/
theorem iblk0_read (m : (ℓ : Loc nD τ sig) → Buf (Elt Ideal) ℓ) (c : Dev nD) (t : Fin cfg0.N) (ch : Fin 64)
    (j : Fin 4096) :
    (iblk m c 0 t : Vec Ideal S1x64x4096 .f32) (ix3 (0 : Fin 1) ch j)
      = (V m c main_arg0 : S16x64x65536.Idx → EReal)
          (ix3 (⟨t.val / 16, batch_lt t⟩ : Fin 16) ch (⟨4096 * (t.val % 16) + j.val, point_lt t j⟩ : Fin 65536)) := by
  unfold iblk
  exact blk0_read (V m c main_arg0) t ch j

/-- The voxel words the body loads at point `t`, read against the array the region finds. -/
theorem iblk1_read (m : (ℓ : Loc nD τ sig) → Buf (Elt Ideal) ℓ) (c : Dev nD) (t : Fin cfg0.N) (j : Fin 4096) :
    (iblk m c 1 t : Vec Ideal S1x1x4096 .i32) (ix3 (0 : Fin 1) (0 : Fin 1) j)
      = (V m c main_v22 : S16x1x65536.Idx → BitVec 32)
          (ix3 (⟨t.val / 16, batch_lt t⟩ : Fin 16) (0 : Fin 1) (⟨4096 * (t.val % 16) + j.val, point_lt t j⟩ : Fin 65536)) := by
  unfold iblk
  exact blk1_read (V m c main_v22) t j

/-! ## The result's block and its cover -/

/-- The result's block at point `t`, of any array `G`: the slab of batch `t / 16`. -/
theorem blk2_read (G : S16x64x8192.Idx → EReal) (t : Fin cfg0.N) (y : S1x64x8192.Idx) :
    ((cfg0.win 2).blk t).view.read (Elt Ideal) G y
      = G (ix3 (⟨t.val / 16, batch_lt t⟩ : Fin 16) (y 1 : Fin 64) (y 2 : Fin 8192)) := by
  obtain ⟨-, -, -, -, -, -, e0, e1, e2⟩ := idx_facts t
  rw [View.read_apply]
  show G (((cfg0.win 2).blk t).view.emb y) = G _
  refine congrArg G (funext fun a => Fin.ext ?_)
  match a with
  | ⟨0, _⟩ =>
    show win0_2.index t (0 : Fin 3) * 1 + 1 * (y 0).val = t.val / 16
    have h0 : (y 0).val < 1 := (y 0).isLt
    rw [e0]; omega
  | ⟨1, _⟩ => show win0_2.index t (1 : Fin 3) * 64 + 1 * (y 1).val = (y 1).val; rw [e1]; omega
  | ⟨2, _⟩ => show win0_2.index t (2 : Fin 3) * 8192 + 1 * (y 2).val = (y 2).val; rw [e2]; omega

/-- Every index of the result array lies in the block of a point that is written back: the last tile's point of the
    index's batch. -/
theorem cover2 : ∀ i : S16x64x8192.Idx,
    ∃ t : Fin cfg0.N, (cfg0.win 2).flush t = true ∧ i ∈ ((cfg0.win 2).blk t).view.set := by
  intro i
  have h0 : (i 0).val < 16 := (i 0).isLt
  have h1 : (i 1).val < 64 := (i 1).isLt
  have h2 : (i 2).val < 8192 := (i 2).isLt
  obtain ⟨t, ht⟩ : ∃ t : Fin cfg0.N, t.val = 16 * (i 0).val + 15 :=
    ⟨⟨16 * (i 0).val + 15, by rw [show cfg0.N = 256 from N_0]; omega⟩, rfl⟩
  obtain ⟨-, -, -, -, -, -, e0, e1, e2⟩ := idx_facts t
  refine ⟨t, (flush0_2 t).mpr (by omega), ?_⟩
  show i ∈ ((View.whole main_v23).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 64 ≤ (i 1).val ∧ (i 1).val < win0_2.index t (1 : Fin 3) * 64 + 64
    rw [e1]; omega
  | ⟨2, _⟩ =>
    show win0_2.index t (2 : Fin 3) * 8192 ≤ (i 2).val ∧ (i 2).val < win0_2.index t (2 : Fin 3) * 8192 + 8192
    rw [e2]; omega

end Cert.Voxel.KBlock

end
-- ==== Proof.KHost.lean ====
/-
  What the region finds in its second operand.

  Before the region is entered the host operations compute each point's voxel number from its coordinates — divide by
  the voxel size, floor, add ten, convert to an integer, clip to 0 … 19, and combine the three coordinates as
  400 x + 20 y + z — and view the resulting [16, 65536] array of words as [16, 1, 65536].  The reference computes the same
  words by the same operations.  So the operand, read at (b, 0, n), is the reference's word of point n of batch b.
-/
import proofs.«122966_j44074954391645_1_alg».proof.Proof.Gen.KernelIdeal.Frame
import proofs.«122966_j44074954391645_1_alg».proof.Proof.Gen.ReferenceIdeal.Read
import Idealize.ShloMosaic.Lib.ValueLayout
import Idealize.ShloMosaic.Lib.StableHlo.Run

noncomputable section

namespace Cert.Voxel.KHost

open Cert.KernelIdeal Cert.KernelIdeal.Gen
open Idealize.ShloMosaic Idealize.ShloMosaic.ValueIdx Idealize.ShloMosaic.TcCoe Idealize.SL.Sem Idealize.ShloMosaic.StableHlo

/-- The second operand as the region finds it is the reference's array of voxel words, viewed as [16, 1, 65536]. -/
theorem v22_eq (m : (ℓ : Loc nD τ sig) → Buf (Elt Ideal) ℓ) (c : Dev nD) :
    (V m c main_v22 : S16x1x65536.Idx → BitVec 32)
      = shapeCast S16x1x65536
          (Cert.ReferenceIdeal.Read.val_main_v21 (F := Ideal) (m ((c.tc : Thread nD τ).loc main_arg1))
            (m ((c.tc : Thread nD τ).loc main_arg2)))
          shapeCasts_S16x65536_S16x1x65536 := by
  dsimp only [V, V0]
  simp only [hostOps0, hostOps0_1, hostOps0_2, List.flatten_cons, List.flatten_nil, List.append_nil, List.cons_append,
    List.nil_append]
  after_results_simp
  rfl

/-- Read at `(b, 0, n)`, the second operand is the reference's voxel word of point `n` of batch `b`. -/
theorem v22_read (m : (ℓ : Loc nD τ sig) → Buf (Elt Ideal) ℓ) (c : Dev nD) (b : Fin 16) (n : Fin 65536) :
    (V m c main_v22 : S16x1x65536.Idx → BitVec 32) (ix3 b (0 : Fin 1) n)
      = Cert.ReferenceIdeal.Read.val_main_v21 (F := Ideal) (m ((c.tc : Thread nD τ).loc main_arg1))
          (m ((c.tc : Thread nD τ).loc main_arg2)) (ix2 b n) := by
  refine (congrFun (v22_eq m c) (ix3 b (0 : Fin 1) n)).trans ?_
  refine shapeCast_apply _ shapeCasts_S16x65536_S16x1x65536 (ix3 b (0 : Fin 1) n) (ix2 b n) ?_
  rw [Shape.rowMajor_val_three, Shape.rowMajor_val_two]
  show b.val * 65536 + n.val = (b.val * 1 + 0) * 65536 + n.val
  omega

end Cert.Voxel.KHost

end
-- ==== Proof.KTail.lean ====
/-
  The kernel program's last two host operations.

  After the region the program keeps the first 8000 of the 8192 places along the result's last axis and splits them
  as 20 × 20 × 20.  Both arrangements are row-major, so the final array at `(b, ch, x, y, z)` is the region's result
  at `(b, ch, 400 x + 20 y + z)`: the element's place among the 8000 is `(x * 20 + y) * 20 + z`.
-/
import proofs.«122966_j44074954391645_1_alg».proof.Proof.Gen.KernelIdeal.Frame
import Idealize.ShloMosaic.Lib.Pipeline.Value
import Idealize.ShloMosaic.Lib.StableHlo.Run
import Idealize.ShloMosaic.Lib.ValueIdx

noncomputable section

namespace Cert.Voxel.KTail

open Idealize.ShloMosaic Idealize.ShloMosaic.ValueIdx Idealize.ShloMosaic.TcCoe Idealize.SL.Sem Idealize.ShloMosaic.StableHlo
open Cert.KernelIdeal Cert.KernelIdeal.Gen

/-- Voxel `(x, y, z)` as a place along the region result's last axis of 8192. -/
def vox (x y z : Fin 20) : Fin 8192 :=
  ⟨400 * x.val + 20 * y.val + z.val, by have := x.isLt; have := y.isLt; have := z.isLt; omega⟩

/-- The same place along the sliced axis of 8000. -/
def vox' (x y z : Fin 20) : Fin 8000 :=
  ⟨400 * x.val + 20 * y.val + z.val, by have := x.isLt; have := y.isLt; have := z.isLt; omega⟩

/-- Keeping the first 8000 places of the last axis and splitting them as 20 × 20 × 20 reads, at `(b, ch, x, y, z)`,
    the array at `(b, ch, 400 x + 20 y + z)`. -/
theorem layout {α : Type} (G : (⟨3, ![16, 64, 8192]⟩ : Shape).Idx → α)
    (hs : (⟨3, ![16, 64, 8192]⟩ : Shape).Slices ![0, 0, 0] ⟨3, ![16, 64, 8000]⟩)
    (hc : (⟨3, ![16, 64, 8000]⟩ : Shape).ShapeCasts ⟨5, ![16, 64, 20, 20, 20]⟩)
    (b : Fin 16) (ch : Fin 64) (x y z : Fin 20) :
    shapeCast (⟨5, ![16, 64, 20, 20, 20]⟩ : Shape)
        (extractStridedSlice (s := ⟨3, ![16, 64, 8192]⟩) (⟨3, ![16, 64, 8000]⟩ : Shape) ![0, 0, 0] G hs) hc (ix5 b ch x y z) =
      G (ix3 b ch (vox x y z)) := by
  have := b.isLt
  have := ch.isLt
  have := x.isLt
  have := y.isLt
  have := z.isLt
  refine (shapeCast_apply (s := ⟨3, ![16, 64, 8000]⟩) (t := ⟨5, ![16, 64, 20, 20, 20]⟩) _ hc (ix5 b ch x y z)
    (ix3 b ch (vox' x y z)) ?_).trans ?_
  · rw [Shape.rowMajor_val_three, Shape.rowMajor_val_five]
    show (b.val * 64 + ch.val) * 8000 + (400 * x.val + 20 * y.val + z.val) =
      ((((b.val * 64 + ch.val) * 20 + x.val) * 20 + y.val) * 20 + z.val)
    omega
  · exact extractStridedSlice_apply (s := ⟨3, ![16, 64, 8192]⟩) (t := ⟨3, ![16, 64, 8000]⟩) ![0, 0, 0] G hs
      (ix3 b ch (vox' x y z)) (ix3 b ch (vox x y z)) (fun a => match a with
        | ⟨0, _⟩ => by show b.val = 0 + b.val; omega
        | ⟨1, _⟩ => by show ch.val = 0 + ch.val; omega
        | ⟨2, _⟩ => by show 400 * x.val + 20 * y.val + z.val = 0 + (400 * x.val + 20 * y.val + z.val); omega)

variable (m : (ℓ : Loc nD τ sig) → Buf (Elt Ideal) ℓ) (c : Dev nD)

/-- The program's result buffer after the two operations, as one function of the region's result array `Gout`. -/
theorem tail_eq (Gout : S16x64x8192.Idx → EReal) (hG : (dats (F := Ideal) m 0 c).arrAt 2 cfg0.N = Gout) :
    Pipeline.afterTail₀ cfgs (dats (F := Ideal) m) 0 (V0 m) [hostOps1] c main_v25 =
      shapeCast S16x64x20x20x20 (extractStridedSlice S16x64x8000 ![0, 0, 0] Gout slices_S16x64x8192_S16x64x8000_0_0_0)
        shapeCasts_S16x64x8000_S16x64x20x20x20 := by
  unfold Pipeline.afterTail₀
  show StableHlo.after hostOps1 _ (Proc.devRef .tc main_v25) = _
  after_results
  have hA : Pipeline.withArrays (cfgs 0).spec c (V0 m c) (fun w => (dats (F := Ideal) m 0 c).arrAt w (cfgs 0).N)
      (Proc.devRef .tc main_v23) = Gout :=
    (Pipeline.withArrays_arr spec0 launch0.win.arr_inj c _ _ 2).trans hG
  rw [hA]
  rfl

/-- The result buffer is unscoped and is no array of the region's windows. -/
theorem v25_rest : main_v25 ∈ Pipeline.restRefs sig (cfgs 0).spec :=
  Pipeline.mem_restRefs_of main_v25 (by decide) (by decide)

/-- The program's result at `(b, ch, x, y, z)` is the region's result at `(b, ch, 400 x + 20 y + z)`. -/
theorem tail_apply (Gout : S16x64x8192.Idx → EReal) (hG : (dats (F := Ideal) m 0 c).arrAt 2 cfg0.N = Gout)
    (i : S16x64x20x20x20.Idx) :
    Pipeline.afterTail₀ cfgs (dats (F := Ideal) m) 0 (V0 m) [hostOps1] c main_v25 i =
      Gout (ix3 (i 0 : Fin 16) (i 1 : Fin 64) (⟨400 * (i 2).val + 20 * (i 3).val + (i 4).val, by
        have h2 : (i 2).val < 20 := (i 2).isLt
        have h3 : (i 3).val < 20 := (i 3).isLt
        have h4 : (i 4).val < 20 := (i 4).isLt
        omega⟩ : Fin 8192)) := by
  rw [tail_eq m c Gout hG]
  obtain ⟨b, ch, x, y, z, rfl⟩ : ∃ (b : Fin 16) (ch : Fin 64) (x y z : Fin 20), i = ix5 b ch x y z :=
    ⟨i 0, i 1, i 2, i 3, i 4, eq_ix5 i⟩
  exact layout Gout slices_S16x64x8192_S16x64x8000_0_0_0 shapeCasts_S16x64x8000_S16x64x20x20x20 b ch x y z

end Cert.Voxel.KTail
-- ==== Proof.KFinal.lean ====
/-
  From the scratch buffers to the program's result.

  The point at tile `T` of batch `b` reads points `4096 T … 4096 T + 4095` of that batch, so the sixteen tiles'
  block sums add up to the sum over all 65536 points: at a batch's last point the sum scratch holds the
  specification's sums, the count scratch its counts, and the block written back is their quotient.  The sixteen
  written-back blocks tile the output array; the host then keeps voxel numbers below 8000 and lays them out as
  `20 × 20 × 20`.
-/
import proofs.«122966_j44074954391645_1_alg».proof.Proof.Gen.KernelIdeal.Frame
import proofs.«122966_j44074954391645_1_alg».proof.Proof.KInv
import proofs.«122966_j44074954391645_1_alg».proof.Proof.KBlock
import proofs.«122966_j44074954391645_1_alg».proof.Proof.KHost
import proofs.«122966_j44074954391645_1_alg».proof.Proof.KTail
import proofs.«122966_j44074954391645_1_alg».proof.Proof.KSum
import proofs.«122966_j44074954391645_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.Voxel.K

open Cert.KernelIdeal Cert.KernelIdeal.Gen Cert.Voxel

variable (m : (ℓ : Loc nD τ sig) → Buf (Elt Ideal) ℓ) (ρ : Dev nD → PrngReg) (c : Dev nD)

/-- The features as the region finds them. -/
def featK : SFeat.Idx → EReal := (V m c main_arg0 : S16x64x65536.Idx → EReal)
/-- The voxel words as the region finds them (its second operand carries a unit middle axis). -/
def flatK : SFlat.Idx → BitVec 32 :=
  fun i => (V m c main_v22 : S16x1x65536.Idx → BitVec 32) (ix3 (i 0 : Fin 16) (0 : Fin 1) (i 1 : Fin 65536))

/-- One point's contribution to channel `ch` at voxel number `r`. -/
def term (b : Fin 16) (n : Fin 65536) (ch : Fin 64) (r : ℕ) : EReal :=
  featK m c (ix3 b ch n) * hit (flatK m c (ix2 b n)) r

/-- A point's block sums, against the global arrays. -/
theorem s5_read (t : Fin cfg0.N) (y : S64x8192.Idx) :
    s5 m c t.val t.isLt y = ∑ j : Fin 4096,
      term m c ⟨t.val / 16, KBlock.batch_lt t⟩ ⟨4096 * (t.val % 16) + j.val, KBlock.point_lt t j⟩ (y 0) (y 1).val := by
  obtain ⟨ch, r, rfl⟩ : ∃ (ch : Fin 64) (r : Fin 8192), y = ix2 ch r := ⟨y 0, y 1, eq_ix2 y⟩
  unfold s5 blockSum5
  refine Finset.sum_congr rfl fun j _ => ?_
  exact congrArg₂ (· * ·) (KBlock.iblk0_read m c t ch j)
    (congrArg (fun w => hit w r.val) (KBlock.iblk1_read m c t j))

theorem s6_read (t : Fin cfg0.N) (y : S1x8192.Idx) :
    s6 m c t.val t.isLt y = ∑ j : Fin 4096,
      hit (flatK m c (ix2 ⟨t.val / 16, KBlock.batch_lt t⟩ ⟨4096 * (t.val % 16) + j.val, KBlock.point_lt t j⟩)) (y 1).val := by
  obtain ⟨z, r, rfl⟩ : ∃ (z : Fin 1) (r : Fin 8192), y = ix2 z r := ⟨y 0, y 1, eq_ix2 y⟩
  unfold s6 blockSum6
  refine Finset.sum_congr rfl fun j _ => ?_
  exact congrArg (fun w => hit w r.val) (KBlock.iblk1_read m c t j)

/-- At the last point of batch `b` the sum scratch holds the specification's sums. -/
theorem last5 (b : ℕ) (hb : b < 16) (y : S64x8192.Idx) :
    (chain m c (16 * b + 15) (lt_N hb (by decide))).1 y = voxSum (featK m c) (flatK m c) ⟨b, hb⟩ (y 0) (y 1).val := by
  rw [(chain_last m c b hb).1 y]
  unfold voxSum
  rw [KSum.sum_tiles]
  refine Finset.sum_congr rfl fun T _ => ?_
  have e := s5_read m c ⟨16 * b + T.val, lt_N hb T.isLt⟩ y
  dsimp only at e
  rw [e]
  refine Finset.sum_congr rfl fun j _ => ?_
  have hT := T.isLt
  have e1 : (⟨(16 * b + T.val) / 16, KBlock.batch_lt ⟨16 * b + T.val, lt_N hb T.isLt⟩⟩ : Fin 16) = ⟨b, hb⟩ :=
    Fin.ext (by show (16 * b + T.val) / 16 = b; omega)
  have e2 : (⟨4096 * ((16 * b + T.val) % 16) + j.val, KBlock.point_lt ⟨16 * b + T.val, lt_N hb T.isLt⟩ j⟩ : Fin 65536)
      = ⟨4096 * T.val + j.val, by have := j.isLt; omega⟩ :=
    Fin.ext (by show 4096 * ((16 * b + T.val) % 16) + j.val = 4096 * T.val + j.val; omega)
  rw [e1, e2]
  rfl

/-- and the count scratch its counts. -/
theorem last6 (b : ℕ) (hb : b < 16) (y : S1x8192.Idx) :
    (chain m c (16 * b + 15) (lt_N hb (by decide))).2 y = voxCount (flatK m c) ⟨b, hb⟩ (y 1).val := by
  rw [(chain_last m c b hb).2 y]
  unfold voxCount
  rw [KSum.sum_tiles]
  refine Finset.sum_congr rfl fun T _ => ?_
  have e := s6_read m c ⟨16 * b + T.val, lt_N hb T.isLt⟩ y
  dsimp only at e
  rw [e]
  refine Finset.sum_congr rfl fun j _ => ?_
  have hT := T.isLt
  have e1 : (⟨(16 * b + T.val) / 16, KBlock.batch_lt ⟨16 * b + T.val, lt_N hb T.isLt⟩⟩ : Fin 16) = ⟨b, hb⟩ :=
    Fin.ext (by show (16 * b + T.val) / 16 = b; omega)
  have e2 : (⟨4096 * ((16 * b + T.val) % 16) + j.val, KBlock.point_lt ⟨16 * b + T.val, lt_N hb T.isLt⟩ j⟩ : Fin 65536)
      = ⟨4096 * T.val + j.val, by have := j.isLt; omega⟩ :=
    Fin.ext (by show 4096 * ((16 * b + T.val) % 16) + j.val = 4096 * T.val + j.val; omega)
  rw [e1, e2]

/-- The output array of the region: at `(b, ch, r)` the average at voxel number `r`. -/
def Gout : S16x64x8192.Idx → EReal :=
  fun i => voxAvg (featK m c) (flatK m c) (i 0 : Fin 16) (i 1 : Fin 64) (i 2).val

/-- What a batch's last point leaves for the write-back, at any position with remainder 15. -/
theorem out_last (n : ℕ) (h : n < cfg0.N) (h15 : n % 16 = 15) (y : S1x64x8192.Idx) :
    quot (chain m c n h).1 (chain m c n h).2 y
      = Gout m c (ix3 (⟨n / 16, KBlock.batch_lt ⟨n, h⟩⟩ : Fin 16) (y 1 : Fin 64) (y 2 : Fin 8192)) := by
  have hN : n < 256 := lt_of_lt_of_eq h N_0
  obtain ⟨b, hb, rfl⟩ : ∃ b, b < 16 ∧ n = 16 * b + 15 := ⟨n / 16, by omega, by omega⟩
  unfold quot Gout voxAvg
  rw [last5 m c b hb, last6 m c b hb]
  have e1 : (⟨(16 * b + 15) / 16, KBlock.batch_lt ⟨16 * b + 15, h⟩⟩ : Fin 16) = ⟨b, hb⟩ :=
    Fin.ext (by show (16 * b + 15) / 16 = b; omega)
  rw [e1]

/-- Every write-back writes the block of `Gout` at its point. -/
theorem flushed_eq (t : Fin cfg0.N) (hf : (cfg0.win 2).flush t = true) :
    (dats (F := Ideal) m 0 c).flushed 2 t = ((cfg0.win 2).blk t).view.read (Elt Ideal) (Gout m c) := by
  have h15 : t.val % 16 = 15 := (flush0_2 t).mp hf
  show (cfg0.win 2).cut (grid0.coords t) ((dats (F := Ideal) m 0 c).after 2 t) = _
  rw [after0_2, out_eq m c t h15]
  funext y
  rw [KBlock.blk2_read]
  exact out_last m c t.val t.isLt h15 y

/-- So the region's output array ends holding `Gout`. -/
theorem final : (dats (F := Ideal) m 0 c).arrAt 2 cfg0.N = Gout m c :=
  (dats (F := Ideal) m 0 c).arrAt_eq_of_cover 2 (Gout m c) (flushed_eq m c) KBlock.cover2

theorem featK_eq : featK m c = m ((c.tc : Thread nD τ).loc main_arg0) := V_main_arg0 m c

theorem flatK_eq : flatK m c
    = Cert.ReferenceIdeal.Read.val_main_v21 (F := Ideal) (m ((c.tc : Thread nD τ).loc main_arg1)) (m ((c.tc : Thread nD τ).loc main_arg2)) :=
  funext fun i => (KHost.v22_read m c (i 0) (i 1)).trans (congrArg _ (eq_ix2 i).symm)

/-- The kernel program's run: its result is the specification's array of the argument arrays, which end unchanged. -/
theorem run : θ_run defs (onTc (τ := τ) (main (F := Ideal))) ⟨m, fun _ => 0, ρ⟩ fun r => ∀ c : Dev nD,
      r.2.mem ((c.tc : Thread nD τ).loc main_v25)
        = Cert.Voxel.result (m ((c.tc : Thread nD τ).loc main_arg0))
            (Cert.ReferenceIdeal.Read.val_main_v21 (F := Ideal) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨funext fun i => (congrFun ((h c).2 main_v25 KTail.v25_rest) i).trans
        ((KTail.tail_apply m c (Gout m c) (final m c) i).trans (by
          unfold Gout
          rw [featK_eq, flatK_eq]
          rfl)),
      ((h c).1 0).trans (((dats (F := Ideal) m 0 c).arrAt_in 0 rfl _).trans ((A_eq m c 0).trans (V_main_arg0 m c))),
      ((h c).2 main_arg1 (Pipeline.mem_restRefs_of main_arg1 (by decide) (by decide))).trans (W_main_arg1 m (dats (F := Ideal) m) c),
      ((h c).2 main_arg2 (Pipeline.mem_restRefs_of main_arg2 (by decide) (by decide))).trans (W_main_arg2 m (dats (F := Ideal) m) c)⟩)
    (run_main m ρ)

end Cert.Voxel.K

end
-- ==== Proof.RefFlat.lean ====
/-
  The voxel number of a point as a 32-bit word.

  Each of the three voxel coordinates is clipped to the signed range [0, 19], so it is the word of a natural number at
  most 19; the voxel number `400 x + 20 y + z` is then the word of a natural number below 8000, computed without
  wrap-around.  Adding `8000 b'` for a batch number `b' < 16` still stays far below 2^31, so the signed reading of the
  segment word is the natural number `f + 8000 b'`; it equals `8000 b + r` with `r < 8000` exactly when `b' = b` and
  `f = r`, by uniqueness of quotient and remainder.
-/
import Idealize.ShloMosaic.PureOps.Ideal

namespace Cert.Voxel.Ref

open Idealize.ShloMosaic

/-- A word clipped to the signed range [0, 19]: the greater of 0 and the word, then the lesser of 19 and that. -/
def clip (w : BitVec 32) : BitVec 32 := IntOp.minsi 19#32 (IntOp.maxsi 0#32 w)

/-- A clipped word is the word of a natural number at most 19. -/
theorem clip_small (w : BitVec 32) : ∃ k : ℕ, k ≤ 19 ∧ clip w = BitVec.ofNat 32 k := by
  unfold clip IntOp.minsi IntOp.maxsi
  by_cases h0 : w.slt 0#32
  · rw [if_pos h0]
    exact ⟨0, by omega, by decide⟩
  · rw [if_neg h0]
    by_cases h19 : (19#32).slt w
    · rw [if_pos h19]
      exact ⟨19, le_refl _, rfl⟩
    · rw [if_neg h19]
      have e0 : (0#32 : BitVec 32).toInt = 0 := by decide
      have e19 : (19#32 : BitVec 32).toInt = 19 := by decide
      have hlo : (0 : ℤ) ≤ w.toInt := by
        have := h0; simp only [BitVec.slt, decide_eq_true_eq, e0] at this; omega
      have hhi : w.toInt ≤ 19 := by
        have := h19; simp only [BitVec.slt, decide_eq_true_eq, e19] at this; omega
      have hlt : w.toNat < 2 ^ 32 := w.isLt
      have hnat : w.toNat ≤ 19 := by
        rw [BitVec.toInt_eq_toNat_cond] at hlo hhi
        split at hlo <;> omega
      refine ⟨w.toNat, hnat, ?_⟩
      apply BitVec.eq_of_toNat_eq
      rw [BitVec.toNat_ofNat]
      omega

/-- The voxel number built from three clipped coordinates is the word of a natural number below 8000. -/
theorem flat_small (a b c : BitVec 32) :
    ∃ f : ℕ, f < 8000 ∧
      IntOp.addi (IntOp.addi (IntOp.muli (clip a) 400#32) (IntOp.muli (clip b) 20#32)) (clip c) = BitVec.ofNat 32 f := by
  obtain ⟨ka, ha, ea⟩ := clip_small a
  obtain ⟨kb, hb, eb⟩ := clip_small b
  obtain ⟨kc, hc, ec⟩ := clip_small c
  refine ⟨ka * 400 + kb * 20 + kc, by omega, ?_⟩
  rw [ea, eb, ec]
  unfold IntOp.addi IntOp.muli
  apply BitVec.eq_of_toNat_eq
  simp only [BitVec.toNat_add, BitVec.toNat_mul, BitVec.toNat_ofNat]
  omega

/-- The segment word of a point of batch `b'` whose voxel number is `f < 8000`, read signed, is `8000 b + r` with
    `r < 8000` exactly when the batch is `b` and the voxel number is `r`. -/
theorem seg_iff (w : BitVec 32) (b' b : Fin 16) (r : ℕ) (hr : r < 8000)
    (hw : ∃ f : ℕ, f < 8000 ∧ w = BitVec.ofNat 32 f) :
    (IntOp.addi w (IntOp.muli (BitVec.ofNat 32 b'.val) 8000#32)).toInt = ((8000 * b.val + r : ℕ) : ℤ) ↔
      b' = b ∧ w = BitVec.ofNat 32 r := by
  obtain ⟨f, hf, rfl⟩ := hw
  have hb' : b'.val < 16 := b'.isLt
  have hb : b.val < 16 := b.isLt
  have hword : IntOp.addi (BitVec.ofNat 32 f) (IntOp.muli (BitVec.ofNat 32 b'.val) 8000#32) =
      BitVec.ofNat 32 (f + 8000 * b'.val) := by
    unfold IntOp.addi IntOp.muli
    apply BitVec.eq_of_toNat_eq
    simp only [BitVec.toNat_add, BitVec.toNat_mul, BitVec.toNat_ofNat]
    omega
  have hint : (BitVec.ofNat 32 (f + 8000 * b'.val)).toInt = ((f + 8000 * b'.val : ℕ) : ℤ) := by
    rw [BitVec.toInt_eq_toNat_cond, BitVec.toNat_ofNat]
    have : (f + 8000 * b'.val) % 2 ^ 32 = f + 8000 * b'.val := Nat.mod_eq_of_lt (by omega)
    rw [this, if_pos (by omega)]
  rw [hword, hint]
  constructor
  · intro h
    have h' : f + 8000 * b'.val = 8000 * b.val + r := by exact_mod_cast h
    have hbb : b'.val = b.val := by omega
    exact ⟨Fin.ext hbb, by congr 1; omega⟩
  · rintro ⟨rfl, h⟩
    have h' := congrArg BitVec.toNat h
    rw [BitVec.toNat_ofNat, BitVec.toNat_ofNat] at h'
    have : f = r := by omega
    subst this
    push_cast; ring

end Cert.Voxel.Ref
-- ==== Proof.RefScatter.lean ====
/-
  The reference's two accumulating scatters, read at one element.

  Both scatters take one start index per point: the index array has shape [1048576, 1], its one column names the
  operand's axis 0, and that axis is inserted (the update has no coordinate along it).  So the update of point `p`
  lands on row `s` of the operand exactly when the index word of `p`, read as a signed integer, is `s`; for the
  channel sums the update's channel coordinate is carried over unchanged to the operand's axis 1.  At the ideal
  instance an accumulating scatter is the operand plus the exact sum of the updates that land on the element, so each
  scatter at an element is the operand there plus the sum, over the points whose index word is the row, of that
  point's update.

  The points are numbered batch by batch, so a sum over all 1048576 points is a double sum over the 16 batches and the
  65536 points of each; a condition that singles out the points of one batch with one voxel number collapses it to a
  sum over that batch.
-/
import proofs.«122966_j44074954391645_1_alg».proof.Proof.Gen.ReferenceIdeal
import Idealize.ShloMosaic.Lib.ValueIdx

noncomputable section

namespace Cert.Voxel.Ref

open Idealize.ShloMosaic Idealize.ShloMosaic.ValueIdx Cert.ReferenceIdeal

/-- The dimension numbers of the channel sums' scatter: operand [128000, 64], indices [1048576, 1], updates [1048576, 64]. -/
abbrev dSum := scatter_S128000x64_S1048576x1_S1048576x64_1_0_0_1
/-- The dimension numbers of the counts' scatter: operand [128000], indices [1048576, 1], updates [1048576]. -/
abbrev dCnt := scatter_S128000_S1048576x1_S1048576_n_0_0_1

/-! ### The channel sums' scatter: one window axis, the channel -/

/-- The place in the index array where the update at `(p, c')` reads its start: row `p`, the one column. -/
theorem dSum_siIdx (p : Fin 1048576) (c' : Fin 64) (k : Fin dSum.scatterDimsToOperandDims.length) :
    dSum.siIdx (ix2 p c') k = (ix2 p (0 : Fin 1) : S1048576x1.Idx) := by
  funext b
  match b with
  | ⟨0, _⟩ =>
    apply Fin.ext
    unfold ScatterDims.siIdx
    rw [dif_neg (by show ¬ (0 : ℕ) = 1; decide)]
    rfl
  | ⟨1, _⟩ =>
    apply Fin.ext
    unfold ScatterDims.siIdx
    rw [dif_pos (by rfl)]
    show k.val = 0
    have := k.isLt
    have hl : dSum.scatterDimsToOperandDims.length = 1 := rfl
    omega

/-- Along the operand's rows the window starts at the index word of the point, read signed. -/
theorem dSum_start0 (idx : IVec S1048576x1 32) (p : Fin 1048576) (c' : Fin 64) :
    dSum.start (ix2 p c') idx (0 : Fin 2) = (idx (ix2 p (0 : Fin 1))).toInt := by
  unfold ScatterDims.start
  rw [dif_pos (by decide), dSum_siIdx]

/-- Along the channels the window starts at zero: the index vector does not name that axis. -/
theorem dSum_start1 (idx : IVec S1048576x1 32) (p : Fin 1048576) (c' : Fin 64) :
    dSum.start (ix2 p c') idx (1 : Fin 2) = 0 := by
  unfold ScatterDims.start
  rw [dif_neg (by decide)]

/-- The rows are an inserted axis: the update has no coordinate along them. -/
theorem dSum_window0 (p : Fin 1048576) (c' : Fin 64) :
    dSum.window (ix2 p c') (0 : Fin 2) = 0 := by
  unfold ScatterDims.window
  rw [dif_neg (by decide)]

/-- Along the channels the window coordinate is the update's channel. -/
theorem dSum_window1 (p : Fin 1048576) (c' : Fin 64) :
    dSum.window (ix2 p c') (1 : Fin 2) = c'.val := by
  unfold ScatterDims.window
  rw [dif_pos (by decide)]
  rfl

/-- The update at `(p, c')` lands on the operand element `(s, c)` exactly when the index word of point `p`, read signed,
    is `s` and the channels agree. -/
theorem dSum_resultIdx_iff (idx : IVec S1048576x1 32) (p : Fin 1048576) (c' : Fin 64) (s : Fin 128000) (c : Fin 64) :
    dSum.resultIdx? (ix2 p c') idx = some (ix2 s c : S128000x64.Idx) ↔
      (idx (ix2 p (0 : Fin 1))).toInt = (s.val : ℤ) ∧ c' = c := by
  have hs : s.val < 128000 := s.isLt
  have hc' : c'.val < 64 := c'.isLt
  unfold ScatterDims.resultIdx?
  split
  · rename_i h
    rw [Option.some.injEq]
    constructor
    · intro e
      have e0 := congrArg (fun f => (f (0 : Fin 2)).val) e
      have e1 := congrArg (fun f => (f (1 : Fin 2)).val) e
      simp only [dSum_start0, dSum_start1, dSum_window0, dSum_window1] at e0 e1
      have h0 := h (0 : Fin 2)
      simp only [dSum_start0, dSum_window0] at h0
      change ((idx (ix2 p (0 : Fin 1))).toInt + ((0 : ℕ) : ℤ)).toNat = s.val at e0
      change ((0 : ℤ) + ((c'.val : ℕ) : ℤ)).toNat = c.val at e1
      refine ⟨by omega, Fin.ext (by omega)⟩
    · rintro ⟨e, rfl⟩
      funext a
      match a with
      | ⟨0, _⟩ =>
        apply Fin.ext
        change (dSum.start (ix2 p c') idx (0 : Fin 2) + ((dSum.window (ix2 p c') (0 : Fin 2) : ℕ) : ℤ)).toNat = s.val
        rw [dSum_start0, dSum_window0, e]; simp
      | ⟨1, _⟩ =>
        apply Fin.ext
        change (dSum.start (ix2 p c') idx (1 : Fin 2) + ((dSum.window (ix2 p c') (1 : Fin 2) : ℕ) : ℤ)).toNat = c'.val
        rw [dSum_start1, dSum_window1]; simp
  · rename_i h
    constructor
    · intro e; cases e
    · rintro ⟨e, rfl⟩
      exfalso; apply h
      intro a
      match a with
      | ⟨0, _⟩ =>
        change 0 ≤ dSum.start (ix2 p c') idx (0 : Fin 2) + ((dSum.window (ix2 p c') (0 : Fin 2) : ℕ) : ℤ) ∧
          dSum.start (ix2 p c') idx (0 : Fin 2) + ((dSum.window (ix2 p c') (0 : Fin 2) : ℕ) : ℤ) < ((128000 : ℕ) : ℤ)
        rw [dSum_start0, dSum_window0, e]; omega
      | ⟨1, _⟩ =>
        change 0 ≤ dSum.start (ix2 p c') idx (1 : Fin 2) + ((dSum.window (ix2 p c') (1 : Fin 2) : ℕ) : ℤ) ∧
          dSum.start (ix2 p c') idx (1 : Fin 2) + ((dSum.window (ix2 p c') (1 : Fin 2) : ℕ) : ℤ) < ((64 : ℕ) : ℤ)
        rw [dSum_start1, dSum_window1]; omega

/-! ### The count's scatter: no window axis -/

/-- The place in the index array where the update of point `p` reads its start: row `p`, the one column. -/
theorem dCnt_siIdx (p : Fin 1048576) (k : Fin dCnt.scatterDimsToOperandDims.length) :
    dCnt.siIdx (ix1 p) k = (ix2 p (0 : Fin 1) : S1048576x1.Idx) := by
  funext b
  match b with
  | ⟨0, _⟩ =>
    apply Fin.ext
    unfold ScatterDims.siIdx
    rw [dif_neg (by show ¬ (0 : ℕ) = 1; decide)]
    rfl
  | ⟨1, _⟩ =>
    apply Fin.ext
    unfold ScatterDims.siIdx
    rw [dif_pos (by rfl)]
    show k.val = 0
    have := k.isLt
    have hl : dCnt.scatterDimsToOperandDims.length = 1 := rfl
    omega

/-- The window starts at the index word of the point, read signed. -/
theorem dCnt_start0 (idx : IVec S1048576x1 32) (p : Fin 1048576) :
    dCnt.start (ix1 p) idx (0 : Fin 1) = (idx (ix2 p (0 : Fin 1))).toInt := by
  unfold ScatterDims.start
  rw [dif_pos (by decide), dCnt_siIdx]

/-- The one operand axis is inserted: the update has no coordinate along it. -/
theorem dCnt_window0 (p : Fin 1048576) :
    dCnt.window (ix1 p) (0 : Fin 1) = 0 := by
  unfold ScatterDims.window
  rw [dif_neg (by decide)]

/-- The update of point `p` lands on the operand element `s` exactly when the index word of `p`, read signed, is `s`. -/
theorem dCnt_resultIdx_iff (idx : IVec S1048576x1 32) (p : Fin 1048576) (s : Fin 128000) :
    dCnt.resultIdx? (ix1 p) idx = some (ix1 s : S128000.Idx) ↔
      (idx (ix2 p (0 : Fin 1))).toInt = (s.val : ℤ) := by
  have hs : s.val < 128000 := s.isLt
  unfold ScatterDims.resultIdx?
  split
  · rename_i h
    rw [Option.some.injEq]
    constructor
    · intro e
      have e0 := congrArg (fun f => (f (0 : Fin 1)).val) e
      simp only [dCnt_start0, dCnt_window0] at e0
      have h0 := h (0 : Fin 1)
      simp only [dCnt_start0, dCnt_window0] at h0
      change ((idx (ix2 p (0 : Fin 1))).toInt + ((0 : ℕ) : ℤ)).toNat = s.val at e0
      omega
    · intro e
      funext a
      match a with
      | ⟨0, _⟩ =>
        apply Fin.ext
        change (dCnt.start (ix1 p) idx (0 : Fin 1) + ((dCnt.window (ix1 p) (0 : Fin 1) : ℕ) : ℤ)).toNat = s.val
        rw [dCnt_start0, dCnt_window0, e]; simp
  · rename_i h
    constructor
    · intro e; cases e
    · intro e
      exfalso; apply h
      intro a
      match a with
      | ⟨0, _⟩ =>
        change 0 ≤ dCnt.start (ix1 p) idx (0 : Fin 1) + ((dCnt.window (ix1 p) (0 : Fin 1) : ℕ) : ℤ) ∧
          dCnt.start (ix1 p) idx (0 : Fin 1) + ((dCnt.window (ix1 p) (0 : Fin 1) : ℕ) : ℤ) < ((128000 : ℕ) : ℤ)
        rw [dCnt_start0, dCnt_window0, e]; omega

/-! ### The two scatters read at an element -/

/-- A sum over the rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The channel sums' scatter at `(s, c)`: the operand element plus the updates `(p, c)` of the points `p` whose index
    word, read signed, is `s`. -/
theorem scatterSum_apply (x : FVec Ideal S128000x64 .f32) (idx : IVec S1048576x1 32) (upd : FVec Ideal S1048576x64 .f32)
    (s : Fin 128000) (c : Fin 64) :
    Host.scatterAdd (F := Ideal) dSum x idx upd (ix2 s c) =
      x (ix2 s c) + ∑ p : Fin 1048576, if (idx (ix2 p (0 : Fin 1))).toInt = (s.val : ℤ) then upd (ix2 p c) else 0 := by
  unfold Host.scatterAdd
  rw [Ideal.hostScatterAdd_def]
  unfold Ideal.hostScatterAdd
  refine congrArg (fun t => x (ix2 s c) + t) ?_
  rw [Finset.sum_filter, sum_idx2]
  refine Finset.sum_congr rfl fun p _ => ?_
  simp only [dSum_resultIdx_iff]
  rw [Finset.sum_eq_single c]
  · simp
  · intro c' _ hne
    rw [if_neg (fun h => hne h.2)]
  · intro h; exact absurd (Finset.mem_univ c) h

/-- The counts' scatter at `s`: the operand element plus the updates of the points whose index word, read signed, is `s`. -/
theorem scatterCnt_apply (x : FVec Ideal S128000 .f32) (idx : IVec S1048576x1 32) (upd : FVec Ideal S1048576 .f32)
    (s : Fin 128000) :
    Host.scatterAdd (F := Ideal) dCnt x idx upd (ix1 s) =
      x (ix1 s) + ∑ p : Fin 1048576, if (idx (ix2 p (0 : Fin 1))).toInt = (s.val : ℤ) then upd (ix1 p) else 0 := by
  unfold Host.scatterAdd
  rw [Ideal.hostScatterAdd_def]
  unfold Ideal.hostScatterAdd
  refine congrArg (fun t => x (ix1 s) + t) ?_
  rw [Finset.sum_filter, sum_idx1]
  refine Finset.sum_congr rfl fun p _ => ?_
  simp only [dCnt_resultIdx_iff]

/-! ### Points batch by batch -/

/-- The flat number of point `n` of batch `b'`: the points are numbered batch by batch, 65536 to a batch. -/
def pt (b' : Fin 16) (n : Fin 65536) : Fin 1048576 :=
  ⟨b'.val * 65536 + n.val, by have := b'.isLt; have := n.isLt; omega⟩

theorem pt_val (b' : Fin 16) (n : Fin 65536) : (pt b' n).val = b'.val * 65536 + n.val := rfl

/-- Every flat point number is `pt` of its batch (the quotient by 65536) and its place in the batch (the remainder). -/
def ptEquiv : Fin 16 × Fin 65536 ≃ Fin 1048576 where
  toFun q := pt q.1 q.2
  invFun p := (⟨p.val / 65536, by have := p.isLt; omega⟩, ⟨p.val % 65536, by omega⟩)
  left_inv q := by
    obtain ⟨b', n⟩ := q
    have := b'.isLt
    have := n.isLt
    apply Prod.ext <;> apply Fin.ext <;> simp only [pt] <;> omega
  right_inv p := by
    have := p.isLt
    apply Fin.ext
    simp only [pt]
    omega

/-- A sum over all points is the sum over the batches of the sums over each batch's points. -/
theorem sum_points {M : Type*} [AddCommMonoid M] (g : Fin 1048576 → M) :
    ∑ p, g p = ∑ b' : Fin 16, ∑ n : Fin 65536, g (pt b' n) := by
  rw [← Equiv.sum_comp ptEquiv g, Fintype.sum_prod_type]
  rfl

/-- Summing, over the points of every batch, the terms of the points selected by a condition that holds exactly for
    the points of batch `b` whose word is `r`, is summing over batch `b` the terms of the points whose word is `r`. -/
theorem sum_segment {M : Type*} [AddCommMonoid M] (word : Fin 16 → Fin 65536 → BitVec 32) (g : Fin 16 → Fin 65536 → M)
    (b : Fin 16) (r : ℕ) (P : Fin 16 → Fin 65536 → Prop) [∀ b' n, Decidable (P b' n)]
    (hP : ∀ b' n, P b' n ↔ b' = b ∧ word b' n = BitVec.ofNat 32 r) :
    ∑ b' : Fin 16, ∑ n : Fin 65536, (if P b' n then g b' n else 0) =
      ∑ n : Fin 65536, if word b n = BitVec.ofNat 32 r then g b n else 0 := by
  rw [Finset.sum_eq_single b]
  · refine Finset.sum_congr rfl fun n _ => ?_
    by_cases h : word b n = BitVec.ofNat 32 r
    · rw [if_pos ((hP b n).2 ⟨rfl, h⟩), if_pos h]
    · rw [if_neg (fun hp => h ((hP b n).1 hp).2), if_neg h]
  · intro b' _ hne
    refine Finset.sum_eq_zero fun n _ => ?_
    rw [if_neg (fun hp => hne ((hP b' n).1 hp).1)]
  · intro h
    exact absurd (Finset.mem_univ b) h

end Cert.Voxel.Ref
-- ==== Proof.RefValue.lean ====
/-
  The reference computes the voxel averages.

  Read at `(b, c, x, y, z)`, the reference's result is the channel-`c` entry of row `s = 8000 b + 400 x + 20 y + z` of the
  scattered sums divided by the greater of the scattered count of row `s` and one (the final reshape and transpose
  only rename the element).  The index word of point `n` of batch `b'` is that point's voxel number plus `8000 b'`; the
  voxel number is below 8000 because its three coordinates were clipped to [0, 19].  So the points whose index word is
  `s` are the points of batch `b` whose voxel number is `400 x + 20 y + z`: the scattered sum of row `s` is the sum of
  their features and the scattered count is their number, which is what the specification says.
-/
import proofs.«122966_j44074954391645_1_alg».proof.Proof.Gen.ReferenceIdeal.Read
import proofs.«122966_j44074954391645_1_alg».proof.Proof.Spec
import proofs.«122966_j44074954391645_1_alg».proof.Proof.RefFlat
import proofs.«122966_j44074954391645_1_alg».proof.Proof.RefScatter
import Idealize.ShloMosaic.PureOps.Ideal.Laws

noncomputable section

namespace Cert.Voxel.Ref

open Idealize.ShloMosaic Idealize.ShloMosaic.ValueIdx Cert.ReferenceIdeal Cert.ReferenceIdeal.Read

variable (x0 : (⟨S16x64x65536, .f32⟩ : BufTy).Contents (Elt Ideal))
  (x1 : (⟨S16x65536x3, .f32⟩ : BufTy).Contents (Elt Ideal))
  (x2 : (⟨S16x3, .f32⟩ : BufTy).Contents (Elt Ideal))

/-- The voxel number of point `n` of batch `b'` is the word of a natural number below 8000: it is
    `400 x + 20 y + z` of three coordinates clipped to [0, 19]. -/
theorem flat_at (b' : Fin 16) (n : Fin 65536) :
    ∃ f : ℕ, f < 8000 ∧ val_main_v21 (F := Ideal) x1 x2 (ix2 b' n) = BitVec.ofNat 32 f := by
  obtain ⟨f, hf, e⟩ := flat_small
    (val_main_v8 (F := Ideal) x1 x2 (idx_main_v10 (idx_main_v11 (ix2 b' n))))
    (val_main_v8 (F := Ideal) x1 x2 (idx_main_v14 (idx_main_v15 (ix2 b' n))))
    (val_main_v8 (F := Ideal) x1 x2 (idx_main_v19 (idx_main_v20 (ix2 b' n))))
  refine ⟨f, hf, ?_⟩
  rw [← e]
  simp only [val_main_v21_apply, val_main_v18_apply, val_main_v13_apply, val_main_v17_apply, val_main_v11_apply,
    val_main_v15_apply, val_main_v20_apply, val_main_v10_apply, val_main_v14_apply, val_main_v19_apply,
    val_main_v9_apply, val_main_call0_v4_apply, val_main_call0_v3_apply, val_main_c_1_apply,
    val_main_call0_v2_apply, val_main_call0_v1_apply, val_main_call0_v0_apply, val_main_c_apply,
    val_main_v12_apply, val_main_c_2_apply, val_main_v16_apply, val_main_c_3_apply]
  rfl

/-- The index word of point `n` of batch `b'`: its voxel number plus `8000 b'`, as 32-bit words. -/
theorem word_at (b' : Fin 16) (n : Fin 65536) :
    val_main_v32 (F := Ideal) x1 x2 (ix2 (pt b' n) (0 : Fin 1)) =
      IntOp.addi (val_main_v21 (F := Ideal) x1 x2 (ix2 b' n)) (IntOp.muli (BitVec.ofNat 32 b'.val) 8000#32) := by
  have hidx : idx_main_v28 (idx_main_v32 (ix2 (pt b' n) (0 : Fin 1))) = ix2 b' n := by
    have := b'.isLt
    have := n.isLt
    funext a
    match a with
    | ⟨0, _⟩ => apply Fin.ext; show (b'.val * 65536 + n.val) / 65536 = b'.val; omega
    | ⟨1, _⟩ => apply Fin.ext; show (b'.val * 65536 + n.val) % 65536 = n.val; omega
  rw [val_main_v32_apply, val_main_v28_apply, hidx, val_main_v27_apply, val_main_v26_apply, val_main_v25_apply,
    val_main_v23_apply, val_main_v22_apply, val_main_v24_apply, val_main_c_4_apply]

/-- The counts' scatter reads the same index words as the sums'. -/
theorem v36_eq : val_main_v36 (F := Ideal) x1 x2 = val_main_v32 (F := Ideal) x1 x2 := rfl

/-- The update of point `n` of batch `b'` in channel `c` is the feature `(b', c, n)`. -/
theorem upd_at (b' : Fin 16) (c : Fin 64) (n : Fin 65536) :
    val_main_v30 (F := Ideal) x0 (ix2 (pt b' n) c) = x0 (ix3 b' c n) := by
  rw [val_main_v30_apply, val_main_v29_apply]
  refine congrArg x0 ?_
  have := b'.isLt
  have := n.isLt
  have := c.isLt
  funext a
  match a with
  | ⟨0, _⟩ => apply Fin.ext; show ((b'.val * 65536 + n.val) * 64 + c.val) / 4194304 = b'.val; omega
  | ⟨1, _⟩ => apply Fin.ext; show ((b'.val * 65536 + n.val) * 64 + c.val) % 64 = c.val; omega
  | ⟨2, _⟩ => apply Fin.ext; show ((b'.val * 65536 + n.val) * 64 + c.val) / 64 % 65536 = n.val; omega

/-- The row of the scattered arrays that holds voxel `(x, y, z)` of batch `b`. -/
def seg (b : Fin 16) (x y z : Fin 20) : Fin 128000 :=
  ⟨8000 * b.val + (400 * x.val + 20 * y.val + z.val), by
    have := b.isLt; have := x.isLt; have := y.isLt; have := z.isLt; omega⟩

/-- A point's index word, read signed, is the row of voxel `(x, y, z)` of batch `b` exactly when the point is in batch
    `b` and its voxel number is `400 x + 20 y + z`. -/
theorem word_iff (b b' : Fin 16) (x y z : Fin 20) (n : Fin 65536) :
    (val_main_v32 (F := Ideal) x1 x2 (ix2 (pt b' n) (0 : Fin 1))).toInt = ((seg b x y z).val : ℤ) ↔
      b' = b ∧ val_main_v21 (F := Ideal) x1 x2 (ix2 b' n) = BitVec.ofNat 32 (400 * x.val + 20 * y.val + z.val) := by
  have := x.isLt
  have := y.isLt
  have := z.isLt
  rw [word_at]
  exact seg_iff _ b' b _ (by omega) (flat_at x1 x2 b' n)

/-- The scattered sum of row `seg b x y z`, channel `c`, is the specification's sum. -/
theorem sums_at (b : Fin 16) (c : Fin 64) (x y z : Fin 20) :
    val_main_v33 (F := Ideal) x0 x1 x2 (ix2 (seg b x y z) c) =
      voxSum x0 (val_main_v21 (F := Ideal) x1 x2) b c (400 * x.val + 20 * y.val + z.val) := by
  unfold val_main_v33
  rw [scatterSum_apply, val_main_v31_apply, val_main_cst_5_apply, Ideal.ofBits_def, Ideal.ofBits_zero_f32, zero_add,
    sum_points]
  simp only [upd_at]
  refine (sum_segment (fun b' n => val_main_v21 (F := Ideal) x1 x2 (ix2 b' n)) (fun b' n => x0 (ix3 b' c n)) b
    (400 * x.val + 20 * y.val + z.val) _ (fun b' n => word_iff x1 x2 b b' x y z n)).trans ?_
  unfold voxSum
  refine Finset.sum_congr rfl fun n _ => ?_
  rw [mul_hit]

/-- The scattered count of row `seg b x y z` is the specification's count. -/
theorem counts_at (b : Fin 16) (x y z : Fin 20) :
    val_main_v37 (F := Ideal) x1 x2 (ix1 (seg b x y z)) =
      voxCount (val_main_v21 (F := Ideal) x1 x2) b (400 * x.val + 20 * y.val + z.val) := by
  unfold val_main_v37
  rw [scatterCnt_apply, val_main_v35_apply, val_main_cst_7_apply, Ideal.ofBits_def, Ideal.ofBits_zero_f32, zero_add,
    sum_points, v36_eq]
  simp only [val_main_v34_apply, val_main_cst_6_apply, Ideal.ofBits_def, one_f32]
  refine (sum_segment (fun b' n => val_main_v21 (F := Ideal) x1 x2 (ix2 b' n)) (fun _ _ => (1 : EReal)) b
    (400 * x.val + 20 * y.val + z.val) _ (fun b' n => word_iff x1 x2 b b' x y z n)).trans ?_
  unfold voxCount hit
  rfl

/-- The reference's result is the specification's result array of the features and the voxel numbers. -/
theorem val_eq :
    val_main_v44 (F := Ideal) x0 x1 x2 = Cert.Voxel.result x0 (val_main_v21 (F := Ideal) x1 x2) := by
  funext i
  obtain ⟨b, c, x, y, z, rfl⟩ : ∃ (b : Fin 16) (c : Fin 64) (x y z : Fin 20), i = ix5 b c x y z :=
    ⟨i 0, i 1, i 2, i 3, i 4, eq_ix5 i⟩
  have hJ : idx_main_v43 (idx_main_v44 (ix5 b c x y z)) = ix2 (seg b x y z) c := by
    have := b.isLt
    have := c.isLt
    have := x.isLt
    have := y.isLt
    have := z.isLt
    funext a
    match a with
    | ⟨0, _⟩ =>
      apply Fin.ext
      show ((((b.val * 20 + x.val) * 20 + y.val) * 20 + z.val) * 64 + c.val) / 64 =
        8000 * b.val + (400 * x.val + 20 * y.val + z.val)
      omega
    | ⟨1, _⟩ =>
      apply Fin.ext
      show ((((b.val * 20 + x.val) * 20 + y.val) * 20 + z.val) * 64 + c.val) % 64 = c.val
      omega
  have hK : idx_main_v40 (idx_main_v41 (ix2 (seg b x y z) c)) = ix1 (seg b x y z) := by
    funext a
    match a with
    | ⟨0, _⟩ => rfl
  rw [val_main_v44_apply, val_main_v43_apply, hJ, val_main_v42_apply, val_main_v41_apply, val_main_v40_apply, hK,
    val_main_v39_apply, val_main_v38_apply, val_main_cst_8_apply, sums_at, counts_at, Ideal.hostDivf_def,
    Ideal.maximumf_def, Ideal.ofBits_def, one_f32]
  rfl

end Cert.Voxel.Ref
-- ==== Proof.lean ====
/-
  The five claims of this certificate.

  Both programs compute, from features `feat : f32[16,64,65536]` and per-point voxel words `flat : i32[16,65536]`
  (obtained from the coordinates and the search area by the same host arithmetic in both), the array
  `result feat flat` of Spec.lean: at `(b, c, x, y, z)` the sum of channel `c` over the points of batch `b` whose
  voxel number is `400 x + 20 y + z`, divided by the number of such points raised to at least one.

  The kernel accumulates these sums and counts as one-hot matrix products, over sixteen point tiles per batch and,
  inside each tile, over eight chunks of 1024 voxel numbers; the reference accumulates them by two scatters into
  `16 · 8000` segments.  On the extended reals both are the same sums: a product with the indicator is the feature
  or zero, and sums may be regrouped freely, so no finiteness of the inputs is used.  The ideal pass rewrote nothing,
  so the kernel's idealization is the kernel's own text read at the ideal instance.
-/
import proofs.«122966_j44074954391645_1_alg».proof.Defs
import proofs.«122966_j44074954391645_1_alg».proof.Proof.Gen.Kernel
import proofs.«122966_j44074954391645_1_alg».proof.Proof.Gen.Kernel.Skeleton
import proofs.«122966_j44074954391645_1_alg».proof.Proof.Gen.Kernel.Loops
import proofs.«122966_j44074954391645_1_alg».proof.Proof.Gen.Kernel.Launch
import proofs.«122966_j44074954391645_1_alg».proof.Proof.Gen.Kernel.Points
import proofs.«122966_j44074954391645_1_alg».proof.Proof.Gen.Kernel.Frame
import proofs.«122966_j44074954391645_1_alg».proof.Proof.Gen.KernelIdeal
import proofs.«122966_j44074954391645_1_alg».proof.Proof.Gen.KernelIdeal.Skeleton
import proofs.«122966_j44074954391645_1_alg».proof.Proof.Gen.KernelIdeal.Loops
import proofs.«122966_j44074954391645_1_alg».proof.Proof.Gen.KernelIdeal.Launch
import proofs.«122966_j44074954391645_1_alg».proof.Proof.Gen.KernelIdeal.Points
import proofs.«122966_j44074954391645_1_alg».proof.Proof.Gen.KernelIdeal.Frame
import proofs.«122966_j44074954391645_1_alg».proof.Proof.Gen.ReferenceIdeal
import proofs.«122966_j44074954391645_1_alg».proof.Proof.Gen.Pre_finite_inputs
import proofs.«122966_j44074954391645_1_alg».proof.Proof.Gen.ReferenceIdeal.Run
import proofs.«122966_j44074954391645_1_alg».proof.Proof.Gen.ReferenceIdeal.Read
import proofs.«122966_j44074954391645_1_alg».proof.Proof.KFinal
import proofs.«122966_j44074954391645_1_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel :=
  fun m ρ _ => Cert.Kernel.Gen.frame m ρ

/-- So does the kernel read at the ideal instance. -/
theorem frame_ki : Cert.frame_KernelIdeal :=
  fun m ρ _ => Cert.KernelIdeal.Gen.frame m ρ

/-- The reference is a straight line of host operations: its run, with the result forgotten. -/
theorem frame_ri : Cert.frame_ReferenceIdeal :=
  fun m ρ _ => (θ_run Cert.ReferenceIdeal.defs _ _).mono (fun _ h c => (h c).2)
    (Cert.ReferenceIdeal.Value.run (F := Ideal) m ρ)

/-- Both programs end with the specification's array of arguments that agree. -/
theorem algebraic : Cert.algebraic_KernelIdeal_ReferenceIdeal := by
  intro m ρ m' ρ' _ hagree
  refine ⟨fun c => Cert.Voxel.result (m ((c.tc : Thread Cert.KernelIdeal.nD Cert.KernelIdeal.τ).loc Cert.KernelIdeal.main_arg0))
      (Cert.ReferenceIdeal.Read.val_main_v21 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.Voxel.K.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.Voxel.Ref.val_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
